-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S2x640000 : Shape := ⟨2, ![2, 640000]⟩
abbrev S40000 : Shape := ⟨1, ![40000]⟩
abbrev S128x128 : Shape := ⟨2, ![128, 128]⟩
abbrev S128 : Shape := ⟨1, ![128]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg9 : FVec F S128x128 .f32) (main_arg10 : FVec F S128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg6 : FVec F S128x128 .f32) (main_arg7 : FVec F S128x128 .f32) (main_arg8 : FVec F S128 .f32) (main_arg9 : FVec F S128x128 .f32) (main_arg10 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S40000x128 .f32) (main_arg1 : IVec S2x640000 32) (main_arg2 : IVec S40000 32) (main_arg3 : FVec F S128x128 .f32) (main_arg4 : FVec F S128x128 .f32) (main_arg5 : FVec F S128 .f32) (main_arg6 : FVec F S128x128 .f32) (main_arg7 : FVec F S128x128 .f32) (main_arg8 : FVec F S128 .f32) (main_arg9 : FVec F S128x128 .f32) (main_arg10 : FVec F S128 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_v13 main_v16
-- ==== Kernel.lean ====
abbrev S40000x128 : Shape := ⟨2, ![40000, 128]⟩
abbrev S2x640000 : Shape := ⟨2, ![2, 640000]⟩
abbrev S40000 : Shape := ⟨1, ![40000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S40000x1 : Shape := ⟨2, ![40000, 1]⟩
abbrev S640000x128 : Shape := ⟨2, ![640000, 128]⟩
abbrev S1x128 : Shape := ⟨2, ![1, 128]⟩
abbrev S5000x128 : Shape := ⟨2, ![5000, 128]⟩
abbrev S5000x1 : Shape := ⟨2, ![5000, 1]⟩
abbrev S64x128 : Shape := ⟨2, ![64, 128]⟩
abbrev S64 : Shape := ⟨1, ![64]⟩
abbrev S64x1 : Shape := ⟨2, ![64, 1]⟩

abbrev nBuf : Space → Nat
  | .hbm => 81
  | .vmem => 26
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S40000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S1x640000, .i32⟩
  | .hbm, ⟨12, _⟩ => ⟨S640000, .i32⟩
  | .hbm, ⟨13, _⟩ => ⟨S1x640000, .i32⟩
  | .hbm, ⟨14, _⟩ => ⟨S640000, .i32⟩
  | .hbm, ⟨15, _⟩ => ⟨S_, .f32⟩
  | .hbm, ⟨16, _⟩ => ⟨S640000, .f32⟩
  | .hbm, ⟨17, _⟩ => ⟨S_, .f32⟩
  | .hbm, ⟨18, _⟩ => ⟨S40000, .f32⟩
  | .hbm, ⟨19, _⟩ => ⟨S_, .f32⟩
  | .hbm, ⟨20, _⟩ => ⟨S40000, .f32⟩
  | .hbm, ⟨21, _⟩ => ⟨S640000x1, .i32⟩
  | .hbm, ⟨22, _⟩ => ⟨S40000, .f32⟩
  | .hbm, ⟨23, _⟩ => ⟨S_, .f32⟩
  | .hbm, ⟨24, _⟩ => ⟨S40000, .f32⟩
  | .hbm, ⟨25, _⟩ => ⟨S40000, .f32⟩
  | .hbm, ⟨26, _⟩ => ⟨S_, .f32⟩
  | .hbm, ⟨27, _⟩ => ⟨S40000, .f32⟩
  | .hbm, ⟨28, _⟩ => ⟨S40000, .f32⟩
  | .hbm, ⟨29, _⟩ => ⟨S40000x1, .f32⟩
  | .hbm, ⟨30, _⟩ => ⟨S_, .i32⟩
  | .hbm, ⟨31, _⟩ => ⟨S640000, .i32⟩
  | .hbm, ⟨32, _⟩ => ⟨S640000, .i1⟩
  | .hbm, ⟨33, _⟩ => ⟨S_, .i32⟩
  | .hbm, ⟨34, _⟩ => ⟨S640000, .i32⟩
  | .hbm, ⟨35, _⟩ => ⟨S640000, .i32⟩
  | .hbm, ⟨36, _⟩ => ⟨S640000, .i32⟩
  | .hbm, ⟨37, _⟩ => ⟨S640000x1, .i32⟩
  | .hbm, ⟨38, _⟩ => ⟨S640000x128, .f32⟩
  | .hbm, ⟨39, _⟩ => ⟨S_, .f32⟩
  | .hbm, ⟨40, _⟩ => ⟨S40000x128, .f32⟩
  | .hbm, ⟨41, _⟩ => ⟨S640000x1, .i32⟩
  | .hbm, ⟨42, _⟩ => ⟨S40000x128, .f32⟩
  | .hbm, ⟨43, _⟩ => ⟨S128x128, .f32⟩
  | .hbm, ⟨44, _⟩ => ⟨S128x128, .f32⟩
  | .hbm, ⟨45, _⟩ => ⟨S1x128, .f32⟩
  | .hbm, ⟨46, _⟩ => ⟨S40000x128, .f32⟩
  | .hbm, ⟨47, _⟩ => ⟨S_, .i32⟩
  | .hbm, ⟨48, _⟩ => ⟨S640000, .i32⟩
  | .hbm, ⟨49, _⟩ => ⟨S640000, .i1⟩
  | .hbm, ⟨50, _⟩ => ⟨S_, .i32⟩
  | .hbm, ⟨51, _⟩ => ⟨S640000, .i32⟩
  | .hbm, ⟨52, _⟩ => ⟨S640000, .i32⟩
  | .hbm, ⟨53, _⟩ => ⟨S640000, .i32⟩
  | .hbm, ⟨54, _⟩ => ⟨S640000x1, .i32⟩
  | .hbm, ⟨55, _⟩ => ⟨S640000x128, .f32⟩
  | .hbm, ⟨56, _⟩ => ⟨S_, .f32⟩
  | .hbm, ⟨57, _⟩ => ⟨S40000x128, .f32⟩
  | .hbm, ⟨58, _⟩ => ⟨S640000x1, .i32⟩
  | .hbm, ⟨59, _⟩ => ⟨S40000x128, .f32⟩
  | .hbm, ⟨60, _⟩ => ⟨S128x128, .f32⟩
  | .hbm, ⟨61, _⟩ => ⟨S128x128, .f32⟩
  | .hbm, ⟨62, _⟩ => ⟨S1x128, .f32⟩
  | .hbm, ⟨63, _⟩ => ⟨S40000x128, .f32⟩
  | .hbm, ⟨64, _⟩ => ⟨S_, .f32⟩
  | .hbm, ⟨65, _⟩ => ⟨S64x128, .f32⟩
  | .hbm, ⟨66, _⟩ => ⟨S40000x1, .i32⟩
  | .hbm, ⟨67, _⟩ => ⟨S64x128, .f32⟩
  | .hbm, ⟨68, _⟩ => ⟨S_, .f32⟩
  | .hbm, ⟨69, _⟩ => ⟨S64, .f32⟩
  | .hbm, ⟨70, _⟩ => ⟨S40000x1, .i32⟩
  | .hbm, ⟨71, _⟩ => ⟨S64, .f32⟩
  | .hbm, ⟨72, _⟩ => ⟨S_, .f32⟩
  | .hbm, ⟨73, _⟩ => ⟨S64, .f32⟩
  | .hbm, ⟨74, _⟩ => ⟨S64, .f32⟩
  | .hbm, ⟨75, _⟩ => ⟨S64x1, .f32⟩
  | .hbm, ⟨76, _⟩ => ⟨S64x128, .f32⟩
  | .hbm, ⟨77, _⟩ => ⟨S64x128, .f32⟩
  | .hbm, ⟨78, _⟩ => ⟨S128x128, .f32⟩
  | .hbm, ⟨79, _⟩ => ⟨S1x128, .f32⟩
  | .hbm, ⟨80, _⟩ => ⟨S64x128, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x1, .f32⟩
  | .local _ .vmem, ⟨14, _⟩ => ⟨S5000x1, .f32⟩
  | .local _ .vmem, ⟨15, _⟩ => ⟨S5000x128, .f32⟩
  | .local _ .vmem, ⟨16, _⟩ => ⟨S5000x128, .f32⟩
  | .local _ .vmem, ⟨17, _⟩ => ⟨S128x128, .f32⟩
  | .local _ .vmem, ⟨18, _⟩ => ⟨S128x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S64x128, .f32⟩
  | .local _ .vmem, ⟨23, _⟩ => ⟨S128x128, .f32⟩
  | .local _ .vmem, ⟨24, _⟩ => ⟨S1x128, .f32⟩
  | .local _ .vmem, ⟨25, _⟩ => ⟨S64x128, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_v10 : Ref sig .tc := ⟨.hbm, 25, rfl⟩
abbrev main_cst_3 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c : Ref sig .tc := ⟨.hbm, 30, rfl⟩
abbrev main_v14 : Ref sig .tc := ⟨.hbm, 31, rfl⟩
abbrev main_v15 : Ref sig .tc := ⟨.hbm, 32, rfl⟩
abbrev main_c_4 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_5 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_6 : Ref sig .tc := ⟨.hbm, 47, rfl⟩
abbrev main_v28 : Ref sig .tc := ⟨.hbm, 48, rfl⟩
abbrev main_v29 : Ref sig .tc := ⟨.hbm, 49, rfl⟩
abbrev main_c_7 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_9 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_10 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_11 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg1_0 : Ref sig .tc := ⟨.vmem, 23, rfl⟩
abbrev cc2_stg2_0 : Ref sig .tc := ⟨.vmem, 24, rfl⟩
abbrev cc2_stg3_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem1_0 : DmaSem sig := 23
abbrev cc2_sem2_0 : DmaSem sig := 24
abbrev cc2_sem3_0 : DmaSem sig := 25

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S64x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S40000 : S_.BroadcastsInDim S40000 (![] : Fin 0 → Fin S40000.rank)
  bcast_S640000_S640000x1_0 : S640000.BroadcastsInDim S640000x1 (![0] : Fin 1 → Fin S640000x1.rank)
  shapeCasts_S40000_S40000x1 : S40000.ShapeCasts S40000x1
  bcast_S_S40000x128 : S_.BroadcastsInDim S40000x128 (![] : Fin 0 → Fin S40000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S64x128 : S_.BroadcastsInDim S64x128 (![] : Fin 0 → Fin S64x128.rank)
  bcast_S40000_S40000x1_0 : S40000.BroadcastsInDim S40000x1 (![0] : Fin 1 → Fin S40000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  inb_S64x128_S64x128_0_0 : ∀ a, (![0, 0] : Fin 2 → Nat) a + S64x128.size a ≤ S64x128.size a
  h_S64x128 : 0 < S64x128.numel
  shapeCasts_S64x128_S64x128 : S64x128.ShapeCasts S64x128
  broadcasts_S1x128_S64x128 : S1x128.Broadcasts S64x128
  scatter_S40000_S640000x1_S640000_n_0_0_1_wf : ScatterDims.WF S40000 S640000x1 S640000 [] [0] [0] 1
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  dot_S5000x128_S128x128_S5000x128_1_0_0_1_n_n_wf : DotDims.WF S5000x128 S128x128 S5000x128 [1] [0] [0] [1] [] []
  scatter_S64x128_S40000x1_S40000x128_1_0_0_1_wf : ScatterDims.WF S64x128 S40000x1 S40000x128 [1] [0] [0] 1
  scatter_S64_S40000x1_S40000_n_0_0_1_wf : ScatterDims.WF S64 S40000x1 S40000 [] [0] [0] 1
  dot_S64x128_S128x128_S64x128_1_0_0_1_n_n_wf : DotDims.WF S64x128 S128x128 S64x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S40000x128.size a
  hwx0_0 : ∀ i : grid0.Coords, EltTy.bits .f32 = 32 ∨ (Rect.block (s := S40000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S40000x1.size a
  hwx0_1 : ∀ i : grid0.Coords, EltTy.bits .f32 = 32 ∨ (Rect.block (s := S40000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S40000x128.size a
  hwx0_2 : ∀ i : grid0.Coords, EltTy.bits .f32 = 32 ∨ (Rect.block (s := S40000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S40000x128.size a
  hwx0_6 : ∀ i : grid0.Coords, EltTy.bits .f32 = 32 ∨ (Rect.block (s := S40000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S40000x128.size a
  hwx1_0 : ∀ i : grid1.Coords, EltTy.bits .f32 = 32 ∨ (Rect.block (s := S40000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S40000x1.size a
  hwx1_1 : ∀ i : grid1.Coords, EltTy.bits .f32 = 32 ∨ (Rect.block (s := S40000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S40000x128.size a
  hwx1_2 : ∀ i : grid1.Coords, EltTy.bits .f32 = 32 ∨ (Rect.block (s := S40000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S40000x128.size a
  hwx1_6 : ∀ i : grid1.Coords, EltTy.bits .f32 = 32 ∨ (Rect.block (s := S40000x128) S5000x128.size (cc1_transform_6 i) (hinb1_6 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S64x128.size a ≤ S64x128.size a
  hwx2_0 : ∀ i : grid2.Coords, EltTy.bits .f32 = 32 ∨ (Rect.block (s := S64x128) S64x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x128.size a ≤ S64x128.size a
  hwx2_3 : ∀ i : grid2.Coords, EltTy.bits .f32 = 32 ∨ (Rect.block (s := S64x128) S64x128.size (cc2_transform_3 i) (hinb2_3 i)).WholeWords (EltTy.packing .f32)

variable [Facts₀]

def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S64x128_S40000x1_S40000x128_1_0_0_1 : ScatterDims S64x128 S40000x1 S40000x128 where
  updateWindowDims := [1]
  insertedWindowDims := [0]
  scatterDimsToOperandDims := [0]
  indexVectorDim := 1
  wf := scatter_S64x128_S40000x1_S40000x128_1_0_0_1_wf
def scatter_S64_S40000x1_S40000_n_0_0_1 : ScatterDims S64 S40000x1 S40000 where
  updateWindowDims := []
  insertedWindowDims := [0]
  scatterDimsToOperandDims := [0]
  indexVectorDim := 1
  wf := scatter_S64_S40000x1_S40000_n_0_0_1_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf

abbrev win0_0 : Pipeline.Window sig grid0 :=
  Pipeline.Window.ofSpec (Memref.whole main_v23) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v37) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v38) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v41) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v52) S64x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v53) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v54) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v55) S64x128.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S40000x128 : Shape := ⟨2, ![40000, 128]⟩
abbrev S2x640000 : Shape := ⟨2, ![2, 640000]⟩
abbrev S40000 : Shape := ⟨1, ![40000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S40000x1 : Shape := ⟨2, ![40000, 1]⟩
abbrev S1x128 : Shape := ⟨2, ![1, 128]⟩
abbrev S64x128 : Shape := ⟨2, ![64, 128]⟩
abbrev S64 : Shape := ⟨1, ![64]⟩
abbrev S64x1 : Shape := ⟨2, ![64, 1]⟩

abbrev nBuf : Space → Nat
  | .hbm => 108
  | .vmem => 0
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S40000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S1x640000, .i32⟩
  | .hbm, ⟨12, _⟩ => ⟨S640000, .i32⟩
  | .hbm, ⟨13, _⟩ => ⟨S1x640000, .i32⟩
  | .hbm, ⟨14, _⟩ => ⟨S640000, .i32⟩
  | .hbm, ⟨15, _⟩ => ⟨S_, .i32⟩
  | .hbm, ⟨16, _⟩ => ⟨S640000, .i32⟩
  | .hbm, ⟨17, _⟩ => ⟨S640000, .i1⟩
  | .hbm, ⟨18, _⟩ => ⟨S_, .i32⟩
  | .hbm, ⟨19, _⟩ => ⟨S640000, .i32⟩
  | .hbm, ⟨20, _⟩ => ⟨S640000, .i32⟩
  | .hbm, ⟨21, _⟩ => ⟨S640000, .i32⟩
  | .hbm, ⟨22, _⟩ => ⟨S640000x1, .i32⟩
  | .hbm, ⟨23, _⟩ => ⟨S640000x128, .f32⟩
  | .hbm, ⟨24, _⟩ => ⟨S_, .f32⟩
  | .hbm, ⟨25, _⟩ => ⟨S40000x128, .f32⟩
  | .hbm, ⟨26, _⟩ => ⟨S640000x1, .i32⟩
  | .hbm, ⟨27, _⟩ => ⟨S40000x128, .f32⟩
  | .hbm, ⟨28, _⟩ => ⟨S_, .f32⟩
  | .hbm, ⟨29, _⟩ => ⟨S640000, .f32⟩
  | .hbm, ⟨30, _⟩ => ⟨S_, .f32⟩
  | .hbm, ⟨31, _⟩ => ⟨S40000, .f32⟩
  | .hbm, ⟨32, _⟩ => ⟨S640000x1, .i32⟩
  | .hbm, ⟨33, _⟩ => ⟨S40000, .f32⟩
  | .hbm, ⟨34, _⟩ => ⟨S_, .f32⟩
  | .hbm, ⟨35, _⟩ => ⟨S40000, .f32⟩
  | .hbm, ⟨36, _⟩ => ⟨S40000, .f32⟩
  | .hbm, ⟨37, _⟩ => ⟨S40000x1, .f32⟩
  | .hbm, ⟨38, _⟩ => ⟨S40000x128, .f32⟩
  | .hbm, ⟨39, _⟩ => ⟨S40000x128, .f32⟩
  | .hbm, ⟨40, _⟩ => ⟨S128x128, .f32⟩
  | .hbm, ⟨41, _⟩ => ⟨S40000x128, .f32⟩
  | .hbm, ⟨42, _⟩ => ⟨S128x128, .f32⟩
  | .hbm, ⟨43, _⟩ => ⟨S40000x128, .f32⟩
  | .hbm, ⟨44, _⟩ => ⟨S40000x128, .f32⟩
  | .hbm, ⟨45, _⟩ => ⟨S1x128, .f32⟩
  | .hbm, ⟨46, _⟩ => ⟨S40000x128, .f32⟩
  | .hbm, ⟨47, _⟩ => ⟨S40000x128, .f32⟩
  | .hbm, ⟨48, _⟩ => ⟨S_, .f32⟩
  | .hbm, ⟨49, _⟩ => ⟨S40000x128, .f32⟩
  | .hbm, ⟨50, _⟩ => ⟨S40000x128, .f32⟩
  | .hbm, ⟨51, _⟩ => ⟨S_, .i32⟩
  | .hbm, ⟨52, _⟩ => ⟨S640000, .i32⟩
  | .hbm, ⟨53, _⟩ => ⟨S640000, .i1⟩
  | .hbm, ⟨54, _⟩ => ⟨S_, .i32⟩
  | .hbm, ⟨55, _⟩ => ⟨S640000, .i32⟩
  | .hbm, ⟨56, _⟩ => ⟨S640000, .i32⟩
  | .hbm, ⟨57, _⟩ => ⟨S640000, .i32⟩
  | .hbm, ⟨58, _⟩ => ⟨S640000x1, .i32⟩
  | .hbm, ⟨59, _⟩ => ⟨S640000x128, .f32⟩
  | .hbm, ⟨60, _⟩ => ⟨S_, .f32⟩
  | .hbm, ⟨61, _⟩ => ⟨S40000x128, .f32⟩
  | .hbm, ⟨62, _⟩ => ⟨S640000x1, .i32⟩
  | .hbm, ⟨63, _⟩ => ⟨S40000x128, .f32⟩
  | .hbm, ⟨64, _⟩ => ⟨S_, .f32⟩
  | .hbm, ⟨65, _⟩ => ⟨S640000, .f32⟩
  | .hbm, ⟨66, _⟩ => ⟨S_, .f32⟩
  | .hbm, ⟨67, _⟩ => ⟨S40000, .f32⟩
  | .hbm, ⟨68, _⟩ => ⟨S640000x1, .i32⟩
  | .hbm, ⟨69, _⟩ => ⟨S40000, .f32⟩
  | .hbm, ⟨70, _⟩ => ⟨S_, .f32⟩
  | .hbm, ⟨71, _⟩ => ⟨S40000, .f32⟩
  | .hbm, ⟨72, _⟩ => ⟨S40000, .f32⟩
  | .hbm, ⟨73, _⟩ => ⟨S40000x1, .f32⟩
  | .hbm, ⟨74, _⟩ => ⟨S40000x128, .f32⟩
  | .hbm, ⟨75, _⟩ => ⟨S40000x128, .f32⟩
  | .hbm, ⟨76, _⟩ => ⟨S128x128, .f32⟩
  | .hbm, ⟨77, _⟩ => ⟨S40000x128, .f32⟩
  | .hbm, ⟨78, _⟩ => ⟨S128x128, .f32⟩
  | .hbm, ⟨79, _⟩ => ⟨S40000x128, .f32⟩
  | .hbm, ⟨80, _⟩ => ⟨S40000x128, .f32⟩
  | .hbm, ⟨81, _⟩ => ⟨S1x128, .f32⟩
  | .hbm, ⟨82, _⟩ => ⟨S40000x128, .f32⟩
  | .hbm, ⟨83, _⟩ => ⟨S40000x128, .f32⟩
  | .hbm, ⟨84, _⟩ => ⟨S_, .f32⟩
  | .hbm, ⟨85, _⟩ => ⟨S40000x128, .f32⟩
  | .hbm, ⟨86, _⟩ => ⟨S40000x128, .f32⟩
  | .hbm, ⟨87, _⟩ => ⟨S_, .f32⟩
  | .hbm, ⟨88, _⟩ => ⟨S64x128, .f32⟩
  | .hbm, ⟨89, _⟩ => ⟨S40000x1, .i32⟩
  | .hbm, ⟨90, _⟩ => ⟨S64x128, .f32⟩
  | .hbm, ⟨91, _⟩ => ⟨S_, .f32⟩
  | .hbm, ⟨92, _⟩ => ⟨S40000, .f32⟩
  | .hbm, ⟨93, _⟩ => ⟨S_, .f32⟩
  | .hbm, ⟨94, _⟩ => ⟨S64, .f32⟩
  | .hbm, ⟨95, _⟩ => ⟨S40000x1, .i32⟩
  | .hbm, ⟨96, _⟩ => ⟨S64, .f32⟩
  | .hbm, ⟨97, _⟩ => ⟨S_, .f32⟩
  | .hbm, ⟨98, _⟩ => ⟨S64, .f32⟩
  | .hbm, ⟨99, _⟩ => ⟨S64, .f32⟩
  | .hbm, ⟨100, _⟩ => ⟨S64x1, .f32⟩
  | .hbm, ⟨101, _⟩ => ⟨S64x128, .f32⟩
  | .hbm, ⟨102, _⟩ => ⟨S64x128, .f32⟩
  | .hbm, ⟨103, _⟩ => ⟨S128x128, .f32⟩
  | .hbm, ⟨104, _⟩ => ⟨S64x128, .f32⟩
  | .hbm, ⟨105, _⟩ => ⟨S1x128, .f32⟩
  | .hbm, ⟨106, _⟩ => ⟨S64x128, .f32⟩
  | .hbm, ⟨107, _⟩ => ⟨S64x128, .f32⟩
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_call0_cst : Ref sig .tc := ⟨.hbm, 48, rfl⟩
abbrev main_call0_v0 : Ref sig .tc := ⟨.hbm, 49, rfl⟩
abbrev main_v31 : Ref sig .tc := ⟨.hbm, 50, rfl⟩
abbrev main_c_4 : Ref sig .tc := ⟨.hbm, 51, rfl⟩
abbrev main_v32 : Ref sig .tc := ⟨.hbm, 52, rfl⟩
abbrev main_v33 : Ref sig .tc := ⟨.hbm, 53, rfl⟩
abbrev main_c_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_6 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_7 : Ref sig .tc := ⟨.hbm, 64, rfl⟩
abbrev main_v42 : Ref sig .tc := ⟨.hbm, 65, rfl⟩
abbrev main_cst_8 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_9 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_call1_cst : Ref sig .tc := ⟨.hbm, 84, rfl⟩
abbrev main_call1_v0 : Ref sig .tc := ⟨.hbm, 85, rfl⟩
abbrev main_v59 : Ref sig .tc := ⟨.hbm, 86, rfl⟩
abbrev main_cst_10 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_11 : Ref sig .tc := ⟨.hbm, 91, rfl⟩
abbrev main_v63 : Ref sig .tc := ⟨.hbm, 92, rfl⟩
abbrev main_cst_12 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_13 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S40000x128 : S_.BroadcastsInDim S40000x128 (![] : Fin 0 → Fin S40000x128.rank)
  bcast_S_S40000 : S_.BroadcastsInDim S40000 (![] : Fin 0 → Fin S40000.rank)
  bcast_S40000_S40000x1_0 : S40000.BroadcastsInDim S40000x1 (![0] : Fin 1 → Fin S40000x1.rank)
  bcast_S40000x1_S40000x128_0_1 : S40000x1.BroadcastsInDim S40000x128 (![0, 1] : Fin 2 → Fin S40000x128.rank)
  transposes_S128x128_S128x128_1_0 : S128x128.Transposes [1, 0] S128x128
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  bcast_S_S64x128 : S_.BroadcastsInDim S64x128 (![] : Fin 0 → Fin S64x128.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S1x128_S64x128_0_1 : S1x128.BroadcastsInDim S64x128 (![0, 1] : Fin 2 → Fin S64x128.rank)
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  scatter_S40000_S640000x1_S640000_n_0_0_1_wf : ScatterDims.WF S40000 S640000x1 S640000 [] [0] [0] 1
  dot_S40000x128_S128x128_S40000x128_1_0_0_1_n_n_wf : DotDims.WF S40000x128 S128x128 S40000x128 [1] [0] [0] [1] [] []
  scatter_S64x128_S40000x1_S40000x128_1_0_0_1_wf : ScatterDims.WF S64x128 S40000x1 S40000x128 [1] [0] [0] 1
  scatter_S64_S40000x1_S40000_n_0_0_1_wf : ScatterDims.WF S64 S40000x1 S40000 [] [0] [0] 1
  dot_S64x128_S128x128_S64x128_1_0_0_1_n_n_wf : DotDims.WF S64x128 S128x128 S64x128 [1] [0] [0] [1] [] []

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf
def scatter_S64x128_S40000x1_S40000x128_1_0_0_1 : ScatterDims S64x128 S40000x1 S40000x128 where
  updateWindowDims := [1]
  insertedWindowDims := [0]
  scatterDimsToOperandDims := [0]
  indexVectorDim := 1
  wf := scatter_S64x128_S40000x1_S40000x128_1_0_0_1_wf
def scatter_S64_S40000x1_S40000_n_0_0_1 : ScatterDims S64 S40000x1 S40000 where
  updateWindowDims := []
  insertedWindowDims := [0]
  scatterDimsToOperandDims := [0]
  indexVectorDim := 1
  wf := scatter_S64_S40000x1_S40000_n_0_0_1_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf

class Facts : Prop extends Facts₀ where

variable [Facts]
-- ==== Proof.KernelRun.lean ====
/-
  The idealized kernel program's run, with its result kept.

  The program is six segments in a row: host operations, a kernel region, host operations, a second region, host
  operations, a third region. The contents of one core's buffers at the seven boundaries are a fold W0 … W6 from the
  launch memory: a host stretch applies its operations, a region replaces its output arrays by what its grid points
  wrote back and leaves every other buffer alone. Every weakly fair execution terminates without fault, and in the final
  state EVERY buffer that outlives the regions holds what the last boundary W6 says. The frame claim keeps from this
  only the eleven argument arrays; the value claim also needs the result array, so the statement here keeps them all.
-/
import proofs.«124955_j39977555591469_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the launch hands each core: its unscoped buffers at the launch memory, nothing owed, the generator register. -/
abbrev start (c : Dev nD) : sProp 𝕄 :=
  iprop(StableHlo.held (c : Thread nD τ) (Pipeline.ucRefs τ sig) (W0 m ρ c) ∗ R c)

-- the launch theorem's implicit arguments are found by unifying its conclusion with this statement, which unfolds
-- plain definitions inside a metavariable's type
set_option backward.isDefEq.respectTransparency.types false in
/-- Every weakly fair execution terminates, nothing faulting, and every buffer that outlives the regions ends at the
    last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    -- the program is the run of its segments
    (fun c Q => by rw [main_run m ρ c])
    -- no pipeline is entered twice
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    -- the launch element is the pipelines' initial ghost state; no core asks for more
    (hu₀ := by
      iintro Hown
      imodintro
      isplitl [Hown]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hown
      · iapply (show (BI.emp : sProp 𝕄) ⊢ bigSep Finset.univ (fun _ : Dev nD => (BI.emp : sProp 𝕄)) from by
          rw [BI.bigSep_emp_const])
        iempintro)
    (T₀ := start m ρ) (Tₙ := Tₙ m ρ)
    -- consecutive segments' thread states are the same proposition
    (hch := ⟨fun _ => .rfl, fun _ => .rfl, fun _ => .rfl, fun _ => .rfl, fun _ => .rfl, fun _ => .rfl, fun _ => .rfl⟩)
    -- each core's launch holdings are the first segment's thread state
    (hinit := by
      refine Pipeline.initEach L lv fun c => ?_
      rw [show unscopedBufs c (fun b => m ((c : Thread nD τ).loc b))
            = StableHlo.held (c : Thread nD τ) (Pipeline.ucRefs τ sig) (W0 m ρ c)
          from Pipeline.unscopedBufs_held c (W0 m ρ c)]
      iintro ⟨⟨Hbufs, -, Howes, -, Hprng, -⟩, -⟩
      imodintro
      isplitl [Hbufs]
      · iexact Hbufs
      isplitl [Hprng]
      · iexists _
        iexact Hprng
      · iexists ∅
        iexact Howes)
    -- the last thread state holds every unscoped buffer at W6: read them all against the final state
    (QY := fun c s => ∀ b ∈ Pipeline.ucRefs τ sig, s.mem (((c : Thread nD τ)).1, b) = W6 m ρ c b)
    (hfin := fun c s' => by
      iintro ⟨⟨Hheld, -⟩, Hstate⟩
      unfold StableHlo.held
      imodintro
      iapply (pointsTo_read_all (Pipeline.ucRefs τ sig) (fun b => (((c : Thread nD τ)).1, b)) (W6 m ρ c) s')
      isplitl [Hheld] <;> iassumption)
    (hQ := fun s h => h)

/-- The result array and the eleven arguments at the end of the run: the result at the last boundary's contents, each
    argument as launched. -/
theorem run_value : θ_run defs (onTc (τ := τ) (main (F := F))) ⟨m, fun _ => 0, ρ⟩ (fun r => ∀ c : Dev nD,
      r.2.mem ((c.tc : Thread nD τ).loc main_v55) = W6 m ρ c (Proc.devRef .tc main_v55)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨h c _ (mem_uc main_v55 (by decide)),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c),
     (h c _ (mem_uc main_arg9 (by decide))).trans (W6_main_arg9 m ρ c),
     (h c _ (mem_uc main_arg10 (by decide))).trans (W6_main_arg10 m ρ c)⟩)
    (run_all m ρ)

end Cert.KernelIdeal.RunValue

end
-- ==== Proof.LayerMath.lean ====
/-
  The arithmetic of the model, entry by entry, on the extended reals.

  A graph-convolution layer with mean aggregation sends node features h (R rows of 128) and the neighbour sums agg
  (same shape) to  relu( (agg scaled row by row by a coefficient) * Wr + h * Wo + b ):  entry (p, q) is
      max( sum_k (agg(p,k) * coef(p)) * Wr(k,q)  +  sum_k h(p,k) * Wo(k,q)  +  b(q) , 0 ).
  The coefficient of row p is the reciprocal of the node's in-degree clamped below at one. One program multiplies by
  that reciprocal, the other divides by the clamped degree; since the clamped degree is at least one it is never zero,
  and away from a zero divisor the extended reals' quotient x / d is x * d⁻¹, which is x * (1 / d). No finiteness
  of x or d is used. The dense head x * W + b is the same without the scaling and the clamp.

  An entry of the layer depends on one row of agg and h and one coefficient only: this is what lets a block of rows
  computed by itself be read as the same rows of the whole array.
-/
import Idealize.ShloMosaic.PureOps.Ideal.Laws
import Idealize.ShloMosaic.Lib.ValueIdx
import Idealize.ShloMosaic.Lib.IdealHost

noncomputable section

namespace Cert.GraphConv

open Idealize.ShloMosaic Idealize.ShloMosaic.ValueIdx

/-- An a by b matrix's shape. -/
abbrev Mat (a b : ℕ) : Shape := ⟨2, ![a, b]⟩

/-- Entry (p, q) of relu((agg scaled by coef, row by row) Wr + h Wo + b). -/
def layerAt {R : ℕ} (agg : (Mat R 128).Idx → EReal) (coef : Fin R → EReal) (h : (Mat R 128).Idx → EReal)
    (wr wo : (Mat 128 128).Idx → EReal) (b : Fin 128 → EReal) (p : Fin R) (q : Fin 128) : EReal :=
  max (((∑ k : Fin 128, (agg (ix2 p k) * coef p) * wr (ix2 k q)) + ∑ k : Fin 128, h (ix2 p k) * wo (ix2 k q)) + b q) 0

/-- Entry (p, q) of x W + b. -/
def denseAt {R : ℕ} (x : (Mat R 128).Idx → EReal) (w : (Mat 128 128).Idx → EReal) (b : Fin 128 → EReal)
    (p : Fin R) (q : Fin 128) : EReal :=
  (∑ k : Fin 128, x (ix2 p k) * w (ix2 k q)) + b q

/-- A degree clamped below at one (the word 0x3F800000 is the number one) is not zero. -/
theorem clamp_ne_zero (d : EReal) : max d (Ideal.ofBits .f32 0x3F800000#32) ≠ 0 := by
  rw [Ideal.ofBits_one_f32]
  exact ne_of_gt (lt_of_lt_of_le zero_lt_one (le_max_right d 1))

/-- Multiplying by the reciprocal of the clamped degree is dividing by the clamped degree, for every extended real x. -/
theorem mul_recip_clamp (x d : EReal) :
    x * Ideal.div (Ideal.ofBits .f32 0x3F800000#32) (max d (Ideal.ofBits .f32 0x3F800000#32))
      = Ideal.div x (max d (Ideal.ofBits .f32 0x3F800000#32)) := by
  have h := clamp_ne_zero d
  rw [Ideal.ofBits_one_f32] at h ⊢
  exact Ideal.mul_one_div h

/-- An entry (p, q) of the layer reads row p of agg and of h, the coefficient of row p, column q of the two weight
    matrices and entry q of the bias, nothing else: operands that agree there give the same entry. -/
theorem layerAt_congr {R R' : ℕ} (agg : (Mat R 128).Idx → EReal) (agg' : (Mat R' 128).Idx → EReal)
    (coef : Fin R → EReal) (coef' : Fin R' → EReal) (h : (Mat R 128).Idx → EReal) (h' : (Mat R' 128).Idx → EReal)
    (wr wr' wo wo' : (Mat 128 128).Idx → EReal) (b b' : Fin 128 → EReal) (p : Fin R) (p' : Fin R') (q : Fin 128)
    (ha : ∀ k, agg (ix2 p k) = agg' (ix2 p' k)) (hc : coef p = coef' p') (hh : ∀ k, h (ix2 p k) = h' (ix2 p' k))
    (hwr : ∀ k, wr (ix2 k q) = wr' (ix2 k q)) (hwo : ∀ k, wo (ix2 k q) = wo' (ix2 k q)) (hb : b q = b' q) :
    layerAt agg coef h wr wo b p q = layerAt agg' coef' h' wr' wo' b' p' q := by
  unfold layerAt
  simp only [ha, hc, hh, hwr, hwo, hb]

/-- The same for the dense head. -/
theorem denseAt_congr {R R' : ℕ} (x : (Mat R 128).Idx → EReal) (x' : (Mat R' 128).Idx → EReal)
    (w w' : (Mat 128 128).Idx → EReal) (b b' : Fin 128 → EReal) (p : Fin R) (p' : Fin R') (q : Fin 128)
    (hx : ∀ k, x (ix2 p k) = x' (ix2 p' k)) (hw : ∀ k, w (ix2 k q) = w' (ix2 k q)) (hb : b q = b' q) :
    denseAt x w b p q = denseAt x' w' b' p' q := by
  unfold denseAt
  simp only [hx, hw, hb]

/-- The layer as a whole array, its coefficients given as an R by 1 column and its bias as a 1 by 128 row. -/
def layerArr {R : ℕ} (agg : (Mat R 128).Idx → EReal) (invd : (Mat R 1).Idx → EReal) (h : (Mat R 128).Idx → EReal)
    (wr wo : (Mat 128 128).Idx → EReal) (b2 : (Mat 1 128).Idx → EReal) : (Mat R 128).Idx → EReal :=
  fun i => layerAt agg (fun p => invd (ix2 p (0 : Fin 1))) h wr wo (fun q => b2 (ix2 (0 : Fin 1) q)) (i 0) (i 1)

/-- The dense head as a whole array, its bias given as a 1 by 128 row. -/
def denseArr {R : ℕ} (x : (Mat R 128).Idx → EReal) (w : (Mat 128 128).Idx → EReal) (b2 : (Mat 1 128).Idx → EReal) :
    (Mat R 128).Idx → EReal :=
  fun i => denseAt x w (fun q => b2 (ix2 (0 : Fin 1) q)) (i 0) (i 1)

end Cert.GraphConv

end
-- ==== Proof.LibMatmulRows.lean ====
/-
  A rank-2 by rank-2 matrix product read at an index, at the ideal instance.

  For dimension numbers that contract the left operand's axis 1 with the right operand's axis 0 and have no batch
  axis, the entry (r, c) of the product into a zero accumulator is the plain sum over k of a(r, k) * b(k, c) on the
  extended reals; the same for the host's dot_general. The two side facts about the free axes (hl0, hr1) are
  decided once per literal record of dimension numbers.
-/
import Idealize.ShloMosaic.PureOps.Ideal.Laws
import Idealize.ShloMosaic.Lib.ValueIdx

noncomputable section

namespace Idealize.ShloMosaic.MatmulRows

open Idealize.ShloMosaic Idealize.ShloMosaic.ValueIdx

variable {M K N : Nat} {φ₁ φ₂ : FTy}

/-- The operand indices of such a product at output index `i` and contraction position `k` are (i 0, k) and (k, i 1). -/
theorem operand_indices
    (d : DotDims (⟨2, ![M, K]⟩ : Shape) (⟨2, ![K, N]⟩ : Shape) (⟨2, ![M, N]⟩ : Shape))
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (i : (⟨2, ![M, N]⟩ : Shape).Idx) (k : Fin K) :
    d.lhsIdx i ((contrEquiv1 d K hrk hs).symm k) = ix2 (i 0) k
    ∧ d.rhsIdx i ((contrEquiv1 d K hrk hs).symm k) = ix2 k (i 1) := by
  have hk := contrEquiv1_symm_val d K hrk hs k
  constructor
  · funext ax
    apply Fin.ext
    match ax with
    | ⟨0, _⟩ => exact hl0 _ _
    | ⟨1, _⟩ => exact (d.lhsIdx_val_of_single hcl _ _).trans hk
  · funext ax
    apply Fin.ext
    match ax with
    | ⟨0, _⟩ => exact (d.rhsIdx_val_of_single hcr _ _).trans hk
    | ⟨1, _⟩ => exact hr1 _ _

/-- A kernel's matrix product into the zero accumulator, entry by entry. -/
theorem matmul_zero_apply
    (d : DotDims (⟨2, ![M, K]⟩ : Shape) (⟨2, ![K, N]⟩ : Shape) (⟨2, ![M, N]⟩ : Shape)) (prec : Option ContractPrecision)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) :
    FloatOps.matmul d prec a b (constant (F := Ideal) (⟨2, ![M, N]⟩ : Shape) .f32 0x00000000#32) i
      = ∑ k : Fin K, a (ix2 (i 0) k) * b (ix2 k (i 1)) := by
  rw [Ideal.matmul_constant_zero_apply, ← Equiv.sum_comp (contrEquiv1 d K hrk hs).symm]
  refine Finset.sum_congr rfl fun k _ => ?_
  obtain ⟨el, er⟩ := operand_indices d hcl hcr hrk hs hl0 hr1 i k
  rw [el, er]
  rfl

/-- The same with the factors named: whatever the left operand's row and the right operand's column are known to be. -/
theorem matmul_zero_rows
    (d : DotDims (⟨2, ![M, K]⟩ : Shape) (⟨2, ![K, N]⟩ : Shape) (⟨2, ![M, N]⟩ : Shape)) (prec : Option ContractPrecision)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) (L R : Fin K → EReal)
    (hl : ∀ k, a (ix2 (i 0) k) = L k) (hr : ∀ k, b (ix2 k (i 1)) = R k) :
    FloatOps.matmul d prec a b (constant (F := Ideal) (⟨2, ![M, N]⟩ : Shape) .f32 0x00000000#32) i
      = ∑ k : Fin K, L k * R k :=
  (matmul_zero_apply d prec hcl hcr hrk hs hl0 hr1 a b i).trans
    (Finset.sum_congr rfl fun k _ => by rw [hl k, hr k])

/-- The host's dot_general, entry by entry: the same sum. -/
theorem dotGeneral_apply
    (d : DotDims (⟨2, ![M, K]⟩ : Shape) (⟨2, ![K, N]⟩ : Shape) (⟨2, ![M, N]⟩ : Shape)) (prec : Option ContractPrecision)
    (sched : HostSchedule)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) :
    FloatOps.dotGeneral d prec sched a b i = ∑ k : Fin K, a (ix2 (i 0) k) * b (ix2 k (i 1)) := by
  rw [Ideal.dotGeneral_apply, ← Equiv.sum_comp (contrEquiv1 d K hrk hs).symm]
  refine Finset.sum_congr rfl fun k _ => ?_
  obtain ⟨el, er⟩ := operand_indices d hcl hcr hrk hs hl0 hr1 i k
  rw [el, er]
  rfl

end Idealize.ShloMosaic.MatmulRows

end
-- ==== Proof.LibKeepdims.lean ====
/-
  The two "keepdims" column forms of a row reduction's result, read at an index.

  A length-a vector cast to an a by 1 column reads, at (i, u), the vector at i; an a by 1 column broadcast to a by b
  reads, at (p, c), the column at p. Together: a per-row quantity (a row's maximum, a row's sum) spread back over the
  row's entries.
-/
import Idealize.ShloMosaic.Lib.Pipeline.Value
import Idealize.ShloMosaic.Lib.ValueIdx

namespace Idealize.ShloMosaic.Keepdims

open Idealize.ShloMosaic Idealize.ShloMosaic.ValueIdx Idealize.ShloMosaic.Pipeline

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a per-row quantity spread over the row. -/
theorem column_spread {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

end Idealize.ShloMosaic.Keepdims
-- ==== Proof.KernelPayload.lean ====
/-
  What each kernel body stores, read at an entry, on the extended reals.

  The two graph-convolution bodies load a 5000-row block of the neighbour sums (x0), the block's column of reciprocal
  degrees (x1, 5000 by 1), the block of node features (x2), the two transposed weight matrices (x3, x4) and the bias as
  a 1 by 128 row (x5), and store  max((x0 scaled row by row by x1) x3 + x2 x4 + x5, 0).  Roundings to bf16 on the way
  into the matrix unit are the identity on the extended reals, a matrix product into the zero accumulator is the plain
  sum over the contracted axis, the column x1 spread across a row reads x1 at the row, and the row x5 spread down the
  rows reads x5 at the column: so entry (p, q) is the layer's entry with coefficient x1(p, 0) and bias x5(0, q).
  The linear body stores x0 x1 + x2 the same way.
-/
import proofs.«124955_j39977555591469_2_alg».proof.Proof.Gen.KernelIdeal.Skeleton
import proofs.«124955_j39977555591469_2_alg».proof.Proof.LayerMath
import proofs.«124955_j39977555591469_2_alg».proof.Proof.LibMatmulRows
import proofs.«124955_j39977555591469_2_alg».proof.Proof.LibKeepdims
import Idealize.ShloMosaic.Lib.ValueLayout
import Idealize.ShloMosaic.Lib.Pipeline.Value

noncomputable section

namespace Cert.KernelIdeal.Payload

open Cert.KernelIdeal Cert.KernelIdeal.Gen Cert.GraphConv
open Idealize.ShloMosaic Idealize.ShloMosaic.ValueIdx

/-! ## The two matrix products' free axes: the left operand's row is the output's row, the right operand's column the
    output's column -/

theorem rows_l0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

theorem rows_r1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

theorem head_l0 (i : S64x128.Idx) (q : dot_S64x128_S128x128_S64x128_1_0_0_1_n_n.contr.Idx) :
    (dot_S64x128_S128x128_S64x128_1_0_0_1_n_n.lhsIdx i q 0).val = (i 0).val := by
  unfold DotDims.lhsIdx
  rw [dif_neg (show ¬(0 : Fin S64x128.rank) ∈ dot_S64x128_S128x128_S64x128_1_0_0_1_n_n.lhsBatch by decide),
    dif_pos (show (0 : Fin S64x128.rank) ∈ dot_S64x128_S128x128_S64x128_1_0_0_1_n_n.lhsNonContracting by decide)]
  rfl

theorem head_r1 (i : S64x128.Idx) (q : dot_S64x128_S128x128_S64x128_1_0_0_1_n_n.contr.Idx) :
    (dot_S64x128_S128x128_S64x128_1_0_0_1_n_n.rhsIdx i q 1).val = (i 1).val := by
  unfold DotDims.rhsIdx
  rw [dif_neg (show ¬(1 : Fin S128x128.rank) ∈ dot_S64x128_S128x128_S64x128_1_0_0_1_n_n.rhsBatch by decide),
    dif_pos (show (1 : Fin S128x128.rank) ∈ dot_S64x128_S128x128_S64x128_1_0_0_1_n_n.rhsNonContracting by decide)]
  rfl

/-! ## The stored values at an entry -/

/-- The first layer's body. -/
theorem conv0_at (x0 : Vec Ideal S5000x128 .f32) (x1 : Vec Ideal S5000x1 .f32) (x2 : Vec Ideal S5000x128 .f32)
    (x3 x4 : Vec Ideal S128x128 .f32) (x5 : Vec Ideal S1x128 .f32) (p : Fin 5000) (q : Fin 128) :
    k0_pay1 (F := Ideal) x0 x1 x2 x3 x4 x5 (ix2 p q)
      = layerAt x0 (fun p => x1 (ix2 p (0 : Fin 1))) x2 x3 x4 (fun q => x5 (ix2 (0 : Fin 1) q)) p q := by
  unfold k0_pay1 layerAt
  simp only [shapeCast_self]
  refine congrArg₂ max (congrArg₂ (· + ·) (congrArg₂ (· + ·) ?_ ?_) ?_) ?_
  · exact MatmulRows.matmul_zero_rows dot_S5000x128_S128x128_S5000x128_1_0_0_1_n_n none rfl rfl rfl rfl rows_l0 rows_r1 _ _ (ix2 p q)
      (fun k => x0 (ix2 p k) * x1 (ix2 p (0 : Fin 1))) (fun k => x3 (ix2 k q))
      (fun k => by
        show x0 (ix2 p k) * broadcastTo S5000x128 x1 broadcasts_S5000x1_S5000x128 (ix2 p k) = _
        rw [Keepdims.broadcastTo_a1_ab_apply])
      (fun k => rfl)
  · exact MatmulRows.matmul_zero_rows dot_S5000x128_S128x128_S5000x128_1_0_0_1_n_n none rfl rfl rfl rfl rows_l0 rows_r1 _ _ (ix2 p q)
      (fun k => x2 (ix2 p k)) (fun k => x4 (ix2 k q)) (fun k => rfl) (fun k => rfl)
  · exact broadcastTo_1b_ab_apply x5 broadcasts_S1x128_S5000x128 p q
  · exact Ideal.ofBits_zero_f32

/-- The second layer's body: the same arithmetic (its features arrive through one more identity cast). -/
theorem conv1_at (x0 : Vec Ideal S5000x128 .f32) (x1 : Vec Ideal S5000x1 .f32) (x2 : Vec Ideal S5000x128 .f32)
    (x3 x4 : Vec Ideal S128x128 .f32) (x5 : Vec Ideal S1x128 .f32) (p : Fin 5000) (q : Fin 128) :
    k1_pay1 (F := Ideal) x0 x1 x2 x3 x4 x5 (ix2 p q)
      = layerAt x0 (fun p => x1 (ix2 p (0 : Fin 1))) x2 x3 x4 (fun q => x5 (ix2 (0 : Fin 1) q)) p q := by
  unfold k1_pay1 layerAt
  simp only [shapeCast_self]
  refine congrArg₂ max (congrArg₂ (· + ·) (congrArg₂ (· + ·) ?_ ?_) ?_) ?_
  · exact MatmulRows.matmul_zero_rows dot_S5000x128_S128x128_S5000x128_1_0_0_1_n_n none rfl rfl rfl rfl rows_l0 rows_r1 _ _ (ix2 p q)
      (fun k => x0 (ix2 p k) * x1 (ix2 p (0 : Fin 1))) (fun k => x3 (ix2 k q))
      (fun k => by
        show x0 (ix2 p k) * broadcastTo S5000x128 x1 broadcasts_S5000x1_S5000x128 (ix2 p k) = _
        rw [Keepdims.broadcastTo_a1_ab_apply])
      (fun k => rfl)
  · exact MatmulRows.matmul_zero_rows dot_S5000x128_S128x128_S5000x128_1_0_0_1_n_n none rfl rfl rfl rfl rows_l0 rows_r1 _ _ (ix2 p q)
      (fun k => x2 (ix2 p k)) (fun k => x4 (ix2 k q)) (fun k => rfl) (fun k => rfl)
  · exact broadcastTo_1b_ab_apply x5 broadcasts_S1x128_S5000x128 p q
  · exact Ideal.ofBits_zero_f32

/-- The linear head's body: x0 x1 + x2. -/
theorem head_at (x0 : Vec Ideal S64x128 .f32) (x1 : Vec Ideal S128x128 .f32) (x2 : Vec Ideal S1x128 .f32)
    (p : Fin 64) (q : Fin 128) :
    k2_pay1 (F := Ideal) x0 x1 x2 (ix2 p q) = denseAt x0 x1 (fun q => x2 (ix2 (0 : Fin 1) q)) p q := by
  unfold k2_pay1 denseAt
  simp only [shapeCast_self]
  refine congrArg₂ (· + ·) ?_ ?_
  · exact MatmulRows.matmul_zero_rows dot_S64x128_S128x128_S64x128_1_0_0_1_n_n none rfl rfl rfl rfl head_l0 head_r1 _ _ (ix2 p q)
      (fun k => x0 (ix2 p k)) (fun k => x1 (ix2 k q)) (fun k => rfl) (fun k => rfl)
  · exact broadcastTo_1b_ab_apply x2 broadcasts_S1x128_S64x128 p q

end Cert.KernelIdeal.Payload

end
-- ==== Proof.KernelBlocks.lean ====
/-
  Each kernel region's output array, as one function of the arrays the region finds.

  A graph-convolution region has eight grid points; point t stages rows 5000 t … 5000 t + 4999 of the neighbour sums, of
  the reciprocal-degree column and of the node features, and the two weight matrices and the bias row whole, runs the
  body and writes rows 5000 t … 5000 t + 4999 of the output back. An element (p, q) of a block sits in its array at
  (block index × 5000 + p, q) (block index 0 for the whole-array windows), so what point t writes back is rows
  5000 t … of the layer of the WHOLE arrays: an entry of the layer reads one row of its row operands only. The eight
  row blocks cover the array (row r lies in block r / 5000), so the output array ends holding the layer of the arrays
  as the region found them. The linear region has one point and every window whole: its output is the dense head of the
  arrays it found.
-/
import proofs.«124955_j39977555591469_2_alg».proof.Proof.Gen.KernelIdeal.Frame
import proofs.«124955_j39977555591469_2_alg».proof.Proof.KernelPayload

set_option maxRecDepth 16384

noncomputable section

namespace Cert.KernelIdeal.Blocks

open Cert.KernelIdeal Cert.KernelIdeal.Gen Cert.GraphConv
open Idealize.ShloMosaic Idealize.ShloMosaic.TcCoe Idealize.ShloMosaic.ValueIdx
open Idealize.ShloMosaic.Pipeline (Dat Cfg Window)

/-- A rank-2 index with the given coordinates. -/
theorem idx2_eq {a b : ℕ} (i : (Mat a b).Idx) (x : Fin a) (y : Fin b) (h0 : (i 0).val = x.val) (h1 : (i 1).val = y.val) :
    i = ix2 x y := by
  funext d
  apply Fin.ext
  match d with
  | ⟨0, _⟩ => exact h0
  | ⟨1, _⟩ => exact h1

theorem origin2 : (![0, 0] : Fin 2 → Nat) = fun _ => 0 := funext fun a => by fin_cases a <;> rfl

-- the buffers' contents when a region is entered: a parameter
variable (V : (c : Dev nD) → (b : Ref sig .tc) → Buf (Elt Ideal) ((c : Thread nD τ).loc b))

/-! ## The first graph-convolution region -/

/-- The block indices of the region's seven windows at point t: the row blocks move with t, the rest stay at the origin. -/
theorem idx0 : ∀ t : Fin cfg0.N,
    win0_6.index t (0 : Fin 2) = t.val ∧ win0_6.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- What point t writes back is block t of the layer of the whole arrays. -/
theorem flushed0 (c : Dev nD) (t : Fin cfg0.N) :
    (dat0 V c).flushed 6 t = ((cfg0.win 6).blk t).view.read (Elt Ideal)
      (layerArr (V c main_v23) (V c main_v13) (V c main_arg0) (V c main_v24) (V c main_v25) (V c main_v26)) := by
  show (cfg0.win 6).cut (grid0.coords t) ((dat0 V c).after 6 t) = _
  rw [after0_6]
  unfold out0_6
  rw [View.canon_unit_zero origin2]
  simp only [View.ld_unit_zero (S := S5000x128) origin2, View.ld_unit_zero (S := S5000x1) origin2,
    View.ld_unit_zero (S := S128x128) origin2, View.ld_unit_zero (S := S1x128) origin2]
  funext j
  have ht : t.val < 8 := lt_of_lt_of_eq t.isLt N_0
  obtain ⟨p, q, rfl⟩ : ∃ (p : Fin 5000) (q : Fin 128), j = ix2 p q := ⟨j 0, j 1, eq_ix2 j⟩
  obtain ⟨e60, e61, e00, e01, e10, e11, e20, e21, e30, e31, e40, e41, e50, e51⟩ := idx0 t
  have hP : t.val * 5000 + p.val < 40000 := by have := p.isLt; omega
  have hi : ((cfg0.win 6).blk t).view.emb (ix2 p q) = ix2 (⟨t.val * 5000 + p.val, hP⟩ : Fin 40000) q :=
    idx2_eq _ _ _
      (by show win0_6.index t (0 : Fin 2) * 5000 + 1 * p.val = t.val * 5000 + p.val; omega)
      (by show win0_6.index t (1 : Fin 2) * 128 + 1 * q.val = q.val; omega)
  show k0_pay1 (iblk0 V c 0 t) (iblk0 V c 1 t) (iblk0 V c 2 t) (iblk0 V c 3 t) (iblk0 V c 4 t) (iblk0 V c 5 t) (ix2 p q)
      = layerArr (V c main_v23) (V c main_v13) (V c main_arg0) (V c main_v24) (V c main_v25) (V c main_v26)
          (((cfg0.win 6).blk t).view.emb (ix2 p q))
  rw [hi]
  refine (Payload.conv0_at (iblk0 V c 0 t) (iblk0 V c 1 t) (iblk0 V c 2 t) (iblk0 V c 3 t) (iblk0 V c 4 t) (iblk0 V c 5 t) p q).trans ?_
  show _ = layerAt (V c main_v23) (fun p => V c main_v13 (ix2 p (0 : Fin 1))) (V c main_arg0) (V c main_v24) (V c main_v25)
      (fun q => V c main_v26 (ix2 (0 : Fin 1) q)) (⟨t.val * 5000 + p.val, hP⟩ : Fin 40000) q
  refine layerAt_congr (iblk0 V c 0 t) (V c main_v23) (fun p => iblk0 V c 1 t (ix2 p (0 : Fin 1)))
    (fun p => V c main_v13 (ix2 p (0 : Fin 1))) (iblk0 V c 2 t) (V c main_arg0) (iblk0 V c 3 t) (V c main_v24)
    (iblk0 V c 4 t) (V c main_v25) (fun q => iblk0 V c 5 t (ix2 (0 : Fin 1) q)) (fun q => V c main_v26 (ix2 (0 : Fin 1) q))
    p ⟨t.val * 5000 + p.val, hP⟩ q (fun k => ?_) ?_ (fun k => ?_) (fun k => ?_) (fun k => ?_) ?_
  · -- the neighbour sums' row
    show V c main_v23 (((cfg0.win 0).blk t).view.emb (ix2 p k)) = V c main_v23 (ix2 ⟨t.val * 5000 + p.val, hP⟩ k)
    exact congrArg (V c main_v23) (idx2_eq _ _ _
      (by show win0_0.index t (0 : Fin 2) * 5000 + 1 * p.val = t.val * 5000 + p.val; omega)
      (by show win0_0.index t (1 : Fin 2) * 128 + 1 * k.val = k.val; omega))
  · -- the row's coefficient
    show V c main_v13 (((cfg0.win 1).blk t).view.emb (ix2 p (0 : Fin 1))) = V c main_v13 (ix2 ⟨t.val * 5000 + p.val, hP⟩ (0 : Fin 1))
    exact congrArg (V c main_v13) (idx2_eq _ _ _
      (by show win0_1.index t (0 : Fin 2) * 5000 + 1 * p.val = t.val * 5000 + p.val; omega)
      (by show win0_1.index t (1 : Fin 2) * 1 + 1 * 0 = 0; omega))
  · -- the features' row
    show V c main_arg0 (((cfg0.win 2).blk t).view.emb (ix2 p k)) = V c main_arg0 (ix2 ⟨t.val * 5000 + p.val, hP⟩ k)
    exact congrArg (V c main_arg0) (idx2_eq _ _ _
      (by show win0_2.index t (0 : Fin 2) * 5000 + 1 * p.val = t.val * 5000 + p.val; omega)
      (by show win0_2.index t (1 : Fin 2) * 128 + 1 * k.val = k.val; omega))
  · -- the neighbour weights, staged whole
    show V c main_v24 (((cfg0.win 3).blk t).view.emb (ix2 k q)) = V c main_v24 (ix2 k q)
    exact congrArg (V c main_v24) (idx2_eq _ _ _
      (by show win0_3.index t (0 : Fin 2) * 128 + 1 * k.val = k.val; omega)
      (by show win0_3.index t (1 : Fin 2) * 128 + 1 * q.val = q.val; omega))
  · -- the root weights, staged whole
    show V c main_v25 (((cfg0.win 4).blk t).view.emb (ix2 k q)) = V c main_v25 (ix2 k q)
    exact congrArg (V c main_v25) (idx2_eq _ _ _
      (by show win0_4.index t (0 : Fin 2) * 128 + 1 * k.val = k.val; omega)
      (by show win0_4.index t (1 : Fin 2) * 128 + 1 * q.val = q.val; omega))
  · -- the bias row, staged whole
    show V c main_v26 (((cfg0.win 5).blk t).view.emb (ix2 (0 : Fin 1) q)) = V c main_v26 (ix2 (0 : Fin 1) q)
    exact congrArg (V c main_v26) (idx2_eq _ _ _
      (by show win0_5.index t (0 : Fin 2) * 1 + 1 * 0 = 0; omega)
      (by show win0_5.index t (1 : Fin 2) * 128 + 1 * q.val = q.val; omega))

/-- An index of the output array is in point t's block iff each coordinate is in the block's range on its axis. -/
theorem mem_blk0 (t : Fin cfg0.N) (i : S40000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v27).slice (win0_6.rect t)).set ↔ _
  rw [View.set_slice_whole, Rect.mem_set_unit]
  exact Iff.rfl

/-- Row r of the output lies in the block of point r / 5000. -/
theorem cover0 (i : S40000x128.Idx) :
    ∃ t : Fin cfg0.N, (cfg0.win 6).flush t = true ∧ i ∈ ((cfg0.win 6).blk t).view.set := by
  have hi0 : (i 0).val < 40000 := (i 0).isLt
  have hi1 : (i 1).val < 128 := (i 1).isLt
  have hN : (i 0).val / 5000 < cfg0.N := lt_of_lt_of_eq (by omega : (i 0).val / 5000 < 8) N_0.symm
  obtain ⟨e60, e61, -⟩ := idx0 ⟨(i 0).val / 5000, hN⟩
  refine ⟨⟨(i 0).val / 5000, hN⟩, flush0_6 _, ?_⟩
  rw [mem_blk0]
  intro a
  match a with
  | ⟨0, _⟩ =>
    show win0_6.index ⟨(i 0).val / 5000, hN⟩ (0 : Fin 2) * 5000 ≤ (i 0).val
      ∧ (i 0).val < win0_6.index ⟨(i 0).val / 5000, hN⟩ (0 : Fin 2) * 5000 + 5000
    rw [e60]
    show (i 0).val / 5000 * 5000 ≤ (i 0).val ∧ (i 0).val < (i 0).val / 5000 * 5000 + 5000
    omega
  | ⟨1, _⟩ =>
    show win0_6.index ⟨(i 0).val / 5000, hN⟩ (1 : Fin 2) * 128 ≤ (i 1).val
      ∧ (i 1).val < win0_6.index ⟨(i 0).val / 5000, hN⟩ (1 : Fin 2) * 128 + 128
    omega

/-- The first region's output array after its eight points: the layer of the arrays the region found. -/
theorem final0 (c : Dev nD) :
    (dat0 V c).arrAt 6 cfg0.N
      = layerArr (V c main_v23) (V c main_v13) (V c main_arg0) (V c main_v24) (V c main_v25) (V c main_v26) :=
  (dat0 V c).arrAt_eq_of_cover 6 _ (fun t _ => flushed0 V c t) cover0

/-! ## The second graph-convolution region: the same grid and blocks over its own arrays -/

/-- The block indices of the second region's seven windows at point t. -/
theorem idx1 : ∀ t : Fin cfg1.N,
    win1_6.index t (0 : Fin 2) = t.val ∧ win1_6.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-- What point t writes back is block t of the layer of the whole arrays. -/
theorem flushed1 (c : Dev nD) (t : Fin cfg1.N) :
    (dat1 V c).flushed 6 t = ((cfg1.win 6).blk t).view.read (Elt Ideal)
      (layerArr (V c main_v37) (V c main_v13) (V c main_v27) (V c main_v38) (V c main_v39) (V c main_v40)) := by
  show (cfg1.win 6).cut (grid1.coords t) ((dat1 V c).after 6 t) = _
  rw [after1_6]
  unfold out1_6
  rw [View.canon_unit_zero origin2]
  simp only [View.ld_unit_zero (S := S5000x128) origin2, View.ld_unit_zero (S := S5000x1) origin2,
    View.ld_unit_zero (S := S128x128) origin2, View.ld_unit_zero (S := S1x128) origin2]
  funext j
  have ht : t.val < 8 := lt_of_lt_of_eq t.isLt N_1
  obtain ⟨p, q, rfl⟩ : ∃ (p : Fin 5000) (q : Fin 128), j = ix2 p q := ⟨j 0, j 1, eq_ix2 j⟩
  obtain ⟨e60, e61, e00, e01, e10, e11, e20, e21, e30, e31, e40, e41, e50, e51⟩ := idx1 t
  have hP : t.val * 5000 + p.val < 40000 := by have := p.isLt; omega
  have hi : ((cfg1.win 6).blk t).view.emb (ix2 p q) = ix2 (⟨t.val * 5000 + p.val, hP⟩ : Fin 40000) q :=
    idx2_eq _ _ _
      (by show win1_6.index t (0 : Fin 2) * 5000 + 1 * p.val = t.val * 5000 + p.val; omega)
      (by show win1_6.index t (1 : Fin 2) * 128 + 1 * q.val = q.val; omega)
  show k1_pay1 (iblk1 V c 0 t) (iblk1 V c 1 t) (iblk1 V c 2 t) (iblk1 V c 3 t) (iblk1 V c 4 t) (iblk1 V c 5 t) (ix2 p q)
      = layerArr (V c main_v37) (V c main_v13) (V c main_v27) (V c main_v38) (V c main_v39) (V c main_v40)
          (((cfg1.win 6).blk t).view.emb (ix2 p q))
  rw [hi]
  refine (Payload.conv1_at (iblk1 V c 0 t) (iblk1 V c 1 t) (iblk1 V c 2 t) (iblk1 V c 3 t) (iblk1 V c 4 t) (iblk1 V c 5 t) p q).trans ?_
  show _ = layerAt (V c main_v37) (fun p => V c main_v13 (ix2 p (0 : Fin 1))) (V c main_v27) (V c main_v38) (V c main_v39)
      (fun q => V c main_v40 (ix2 (0 : Fin 1) q)) (⟨t.val * 5000 + p.val, hP⟩ : Fin 40000) q
  refine layerAt_congr (iblk1 V c 0 t) (V c main_v37) (fun p => iblk1 V c 1 t (ix2 p (0 : Fin 1)))
    (fun p => V c main_v13 (ix2 p (0 : Fin 1))) (iblk1 V c 2 t) (V c main_v27) (iblk1 V c 3 t) (V c main_v38)
    (iblk1 V c 4 t) (V c main_v39) (fun q => iblk1 V c 5 t (ix2 (0 : Fin 1) q)) (fun q => V c main_v40 (ix2 (0 : Fin 1) q))
    p ⟨t.val * 5000 + p.val, hP⟩ q (fun k => ?_) ?_ (fun k => ?_) (fun k => ?_) (fun k => ?_) ?_
  · -- the neighbour sums' row
    show V c main_v37 (((cfg1.win 0).blk t).view.emb (ix2 p k)) = V c main_v37 (ix2 ⟨t.val * 5000 + p.val, hP⟩ k)
    exact congrArg (V c main_v37) (idx2_eq _ _ _
      (by show win1_0.index t (0 : Fin 2) * 5000 + 1 * p.val = t.val * 5000 + p.val; omega)
      (by show win1_0.index t (1 : Fin 2) * 128 + 1 * k.val = k.val; omega))
  · -- the row's coefficient
    show V c main_v13 (((cfg1.win 1).blk t).view.emb (ix2 p (0 : Fin 1))) = V c main_v13 (ix2 ⟨t.val * 5000 + p.val, hP⟩ (0 : Fin 1))
    exact congrArg (V c main_v13) (idx2_eq _ _ _
      (by show win1_1.index t (0 : Fin 2) * 5000 + 1 * p.val = t.val * 5000 + p.val; omega)
      (by show win1_1.index t (1 : Fin 2) * 1 + 1 * 0 = 0; omega))
  · -- the features' row: the first layer's output
    show V c main_v27 (((cfg1.win 2).blk t).view.emb (ix2 p k)) = V c main_v27 (ix2 ⟨t.val * 5000 + p.val, hP⟩ k)
    exact congrArg (V c main_v27) (idx2_eq _ _ _
      (by show win1_2.index t (0 : Fin 2) * 5000 + 1 * p.val = t.val * 5000 + p.val; omega)
      (by show win1_2.index t (1 : Fin 2) * 128 + 1 * k.val = k.val; omega))
  · -- the neighbour weights, staged whole
    show V c main_v38 (((cfg1.win 3).blk t).view.emb (ix2 k q)) = V c main_v38 (ix2 k q)
    exact congrArg (V c main_v38) (idx2_eq _ _ _
      (by show win1_3.index t (0 : Fin 2) * 128 + 1 * k.val = k.val; omega)
      (by show win1_3.index t (1 : Fin 2) * 128 + 1 * q.val = q.val; omega))
  · -- the root weights, staged whole
    show V c main_v39 (((cfg1.win 4).blk t).view.emb (ix2 k q)) = V c main_v39 (ix2 k q)
    exact congrArg (V c main_v39) (idx2_eq _ _ _
      (by show win1_4.index t (0 : Fin 2) * 128 + 1 * k.val = k.val; omega)
      (by show win1_4.index t (1 : Fin 2) * 128 + 1 * q.val = q.val; omega))
  · -- the bias row, staged whole
    show V c main_v40 (((cfg1.win 5).blk t).view.emb (ix2 (0 : Fin 1) q)) = V c main_v40 (ix2 (0 : Fin 1) q)
    exact congrArg (V c main_v40) (idx2_eq _ _ _
      (by show win1_5.index t (0 : Fin 2) * 1 + 1 * 0 = 0; omega)
      (by show win1_5.index t (1 : Fin 2) * 128 + 1 * q.val = q.val; omega))

/-- An index of the second region's output array is in point t's block iff each coordinate is in the block's range. -/
theorem mem_blk1 (t : Fin cfg1.N) (i : S40000x128.Idx) :
    i ∈ ((cfg1.win 6).blk t).view.set ↔ ∀ a : Fin 2, win1_6.index t a * S5000x128.size a ≤ (i a).val
      ∧ (i a).val < win1_6.index t a * S5000x128.size a + S5000x128.size a := by
  show i ∈ ((View.whole main_v41).slice (win1_6.rect t)).set ↔ _
  rw [View.set_slice_whole, Rect.mem_set_unit]
  exact Iff.rfl

/-- Row r of the second region's output lies in the block of point r / 5000. -/
theorem cover1 (i : S40000x128.Idx) :
    ∃ t : Fin cfg1.N, (cfg1.win 6).flush t = true ∧ i ∈ ((cfg1.win 6).blk t).view.set := by
  have hi0 : (i 0).val < 40000 := (i 0).isLt
  have hi1 : (i 1).val < 128 := (i 1).isLt
  have hN : (i 0).val / 5000 < cfg1.N := lt_of_lt_of_eq (by omega : (i 0).val / 5000 < 8) N_1.symm
  obtain ⟨e60, e61, -⟩ := idx1 ⟨(i 0).val / 5000, hN⟩
  refine ⟨⟨(i 0).val / 5000, hN⟩, flush1_6 _, ?_⟩
  rw [mem_blk1]
  intro a
  match a with
  | ⟨0, _⟩ =>
    show win1_6.index ⟨(i 0).val / 5000, hN⟩ (0 : Fin 2) * 5000 ≤ (i 0).val
      ∧ (i 0).val < win1_6.index ⟨(i 0).val / 5000, hN⟩ (0 : Fin 2) * 5000 + 5000
    rw [e60]
    show (i 0).val / 5000 * 5000 ≤ (i 0).val ∧ (i 0).val < (i 0).val / 5000 * 5000 + 5000
    omega
  | ⟨1, _⟩ =>
    show win1_6.index ⟨(i 0).val / 5000, hN⟩ (1 : Fin 2) * 128 ≤ (i 1).val
      ∧ (i 1).val < win1_6.index ⟨(i 0).val / 5000, hN⟩ (1 : Fin 2) * 128 + 128
    omega

/-- The second region's output array after its eight points: the layer of the arrays the region found. -/
theorem final1 (c : Dev nD) :
    (dat1 V c).arrAt 6 cfg1.N
      = layerArr (V c main_v37) (V c main_v13) (V c main_v27) (V c main_v38) (V c main_v39) (V c main_v40) :=
  (dat1 V c).arrAt_eq_of_cover 6 _ (fun t _ => flushed1 V c t) cover1

/-! ## The linear region: one point, every window its whole array -/

/-- Every window of the linear region sits at the origin at its one point. -/
theorem idx2 : ∀ t : Fin cfg2.N,
    win2_3.index t (0 : Fin 2) = 0 ∧ win2_3.index t (1 : Fin 2) = 0
    ∧ win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0 :=
  (by decide +kernel : ∀ t : Fin grid2.N, _)

/-- What the one point writes back is the dense head of the whole arrays, read through the whole-array block. -/
theorem flushed2 (c : Dev nD) (t : Fin cfg2.N) :
    (dat2 V c).flushed 3 t = ((cfg2.win 3).blk t).view.read (Elt Ideal)
      (denseArr (V c main_v52) (V c main_v53) (V c main_v54)) := by
  show (cfg2.win 3).cut (grid2.coords t) ((dat2 V c).after 3 t) = _
  rw [after2_3]
  unfold out2_3
  rw [View.canon_unit_zero origin2]
  simp only [View.ld_unit_zero (S := S64x128) origin2, View.ld_unit_zero (S := S128x128) origin2,
    View.ld_unit_zero (S := S1x128) origin2]
  funext j
  obtain ⟨p, q, rfl⟩ : ∃ (p : Fin 64) (q : Fin 128), j = ix2 p q := ⟨j 0, j 1, eq_ix2 j⟩
  obtain ⟨e30, e31, e00, e01, e10, e11, e20, e21⟩ := idx2 t
  have hi : ((cfg2.win 3).blk t).view.emb (ix2 p q) = ix2 p q :=
    idx2_eq _ _ _
      (by show win2_3.index t (0 : Fin 2) * 64 + 1 * p.val = p.val; omega)
      (by show win2_3.index t (1 : Fin 2) * 128 + 1 * q.val = q.val; omega)
  show k2_pay1 (iblk2 V c 0 t) (iblk2 V c 1 t) (iblk2 V c 2 t) (ix2 p q)
      = denseArr (V c main_v52) (V c main_v53) (V c main_v54) (((cfg2.win 3).blk t).view.emb (ix2 p q))
  rw [hi]
  refine (Payload.head_at (iblk2 V c 0 t) (iblk2 V c 1 t) (iblk2 V c 2 t) p q).trans ?_
  show _ = denseAt (V c main_v52) (V c main_v53) (fun q => V c main_v54 (ix2 (0 : Fin 1) q)) p q
  refine denseAt_congr (iblk2 V c 0 t) (V c main_v52) (iblk2 V c 1 t) (V c main_v53)
    (fun q => iblk2 V c 2 t (ix2 (0 : Fin 1) q)) (fun q => V c main_v54 (ix2 (0 : Fin 1) q)) p p q
    (fun k => ?_) (fun k => ?_) ?_
  · -- the pooled features' row
    show V c main_v52 (((cfg2.win 0).blk t).view.emb (ix2 p k)) = V c main_v52 (ix2 p k)
    exact congrArg (V c main_v52) (idx2_eq _ _ _
      (by show win2_0.index t (0 : Fin 2) * 64 + 1 * p.val = p.val; omega)
      (by show win2_0.index t (1 : Fin 2) * 128 + 1 * k.val = k.val; omega))
  · -- the head's weights
    show V c main_v53 (((cfg2.win 1).blk t).view.emb (ix2 k q)) = V c main_v53 (ix2 k q)
    exact congrArg (V c main_v53) (idx2_eq _ _ _
      (by show win2_1.index t (0 : Fin 2) * 128 + 1 * k.val = k.val; omega)
      (by show win2_1.index t (1 : Fin 2) * 128 + 1 * q.val = q.val; omega))
  · -- the head's bias row
    show V c main_v54 (((cfg2.win 2).blk t).view.emb (ix2 (0 : Fin 1) q)) = V c main_v54 (ix2 (0 : Fin 1) q)
    exact congrArg (V c main_v54) (idx2_eq _ _ _
      (by show win2_2.index t (0 : Fin 2) * 1 + 1 * 0 = 0; omega)
      (by show win2_2.index t (1 : Fin 2) * 128 + 1 * q.val = q.val; omega))

/-- An index of the result array is in the one point's block iff each coordinate is in range. -/
theorem mem_blk2 (t : Fin cfg2.N) (i : S64x128.Idx) :
    i ∈ ((cfg2.win 3).blk t).view.set ↔ ∀ a : Fin 2, win2_3.index t a * S64x128.size a ≤ (i a).val
      ∧ (i a).val < win2_3.index t a * S64x128.size a + S64x128.size a := by
  show i ∈ ((View.whole main_v55).slice (win2_3.rect t)).set ↔ _
  rw [View.set_slice_whole, Rect.mem_set_unit]
  exact Iff.rfl

/-- The one point's block is the whole result array. -/
theorem cover2 (i : S64x128.Idx) :
    ∃ t : Fin cfg2.N, (cfg2.win 3).flush t = true ∧ i ∈ ((cfg2.win 3).blk t).view.set := by
  have hi0 : (i 0).val < 64 := (i 0).isLt
  have hi1 : (i 1).val < 128 := (i 1).isLt
  obtain ⟨e30, e31, -⟩ := idx2 t2_0
  refine ⟨t2_0, flush2_3 _, ?_⟩
  rw [mem_blk2]
  intro a
  match a with
  | ⟨0, _⟩ =>
    show win2_3.index t2_0 (0 : Fin 2) * 64 ≤ (i 0).val ∧ (i 0).val < win2_3.index t2_0 (0 : Fin 2) * 64 + 64
    omega
  | ⟨1, _⟩ =>
    show win2_3.index t2_0 (1 : Fin 2) * 128 ≤ (i 1).val ∧ (i 1).val < win2_3.index t2_0 (1 : Fin 2) * 128 + 128
    omega

/-- The result array after the linear region: the dense head of the arrays the region found. -/
theorem final2 (c : Dev nD) :
    (dat2 V c).arrAt 3 cfg2.N = denseArr (V c main_v52) (V c main_v53) (V c main_v54) :=
  (dat2 V c).arrAt_eq_of_cover 3 _ (fun t _ => flushed2 V c t) cover2

end Cert.KernelIdeal.Blocks

end
-- ==== Proof.LibHostBroadcast.lean ====
/-
  The host's broadcast_in_dim in the few forms a dense layer uses, read at an index.

  A scalar spread over any shape; a length-b vector made a 1 by b row and the row repeated down a rows (a bias); a
  length-a vector made an a by 1 column and the column repeated across b columns (a per-row quantity kept as a column).
-/
import Idealize.ShloMosaic.Lib.Pipeline.Value
import Idealize.ShloMosaic.Lib.ValueIdx

namespace Idealize.ShloMosaic.HostBroadcast

open Idealize.ShloMosaic Idealize.ShloMosaic.ValueIdx Idealize.ShloMosaic.Pipeline

variable {α : Type}

/-- A scalar broadcast to any shape reads the scalar everywhere. -/
theorem scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 (fun a => a.elim0)

/-- A length-b vector as a 1 by b row. -/
theorem vec_row_apply {b : ℕ} (h : (⟨1, ![b]⟩ : Shape).BroadcastsInDim ⟨2, ![1, b]⟩ ![1])
    (x : (⟨1, ![b]⟩ : Shape).Idx → α) (j : (⟨2, ![1, b]⟩ : Shape).Idx) :
    broadcastInDim ⟨2, ![1, b]⟩ ![1] h x j = x (ix1 (j 1)) :=
  broadcastInDim_apply _ h x j (ix1 (j 1)) (fun a => match a with
    | ⟨0, _⟩ => by
      show (j 1).val = if b = 1 then 0 else (j 1).val
      split
      · have := (j 1).isLt; simp at this; omega
      · rfl)

/-- A 1 by b row repeated down a rows. -/
theorem row_rows_apply {a b : ℕ} (h : (⟨2, ![1, b]⟩ : Shape).BroadcastsInDim ⟨2, ![a, b]⟩ ![0, 1])
    (x : (⟨2, ![1, b]⟩ : Shape).Idx → α) (j : (⟨2, ![a, b]⟩ : Shape).Idx) :
    broadcastInDim ⟨2, ![a, b]⟩ ![0, 1] h x j = x (ix2 (0 : Fin 1) (j 1)) :=
  broadcastInDim_apply _ h x j (ix2 (0 : Fin 1) (j 1)) (fun ax => match ax with
    | ⟨0, _⟩ => by
      show 0 = if (1 : ℕ) = 1 then 0 else (j 0).val
      rw [if_pos rfl]
    | ⟨1, _⟩ => by
      show (j 1).val = if b = 1 then 0 else (j 1).val
      split
      · have := (j 1).isLt; simp at this; omega
      · rfl)

/-- A bias: the vector at the column, whatever the row. -/
theorem bias_apply {a b : ℕ} (h1 : (⟨1, ![b]⟩ : Shape).BroadcastsInDim ⟨2, ![1, b]⟩ ![1])
    (h2 : (⟨2, ![1, b]⟩ : Shape).BroadcastsInDim ⟨2, ![a, b]⟩ ![0, 1])
    (x : (⟨1, ![b]⟩ : Shape).Idx → α) (j : (⟨2, ![a, b]⟩ : Shape).Idx) :
    broadcastInDim ⟨2, ![a, b]⟩ ![0, 1] h2 (broadcastInDim ⟨2, ![1, b]⟩ ![1] h1 x) j = x (ix1 (j 1)) :=
  (row_rows_apply h2 _ j).trans (vec_row_apply h1 x _)

/-- A length-a vector as an a by 1 column. -/
theorem vec_col_apply {a : ℕ} (h : (⟨1, ![a]⟩ : Shape).BroadcastsInDim ⟨2, ![a, 1]⟩ ![0])
    (x : (⟨1, ![a]⟩ : Shape).Idx → α) (j : (⟨2, ![a, 1]⟩ : Shape).Idx) :
    broadcastInDim ⟨2, ![a, 1]⟩ ![0] h x j = x (ix1 (j 0)) :=
  broadcastInDim_apply _ h x j (ix1 (j 0)) (fun ax => match ax with
    | ⟨0, _⟩ => by
      show (j 0).val = if a = 1 then 0 else (j 0).val
      split
      · have := (j 0).isLt; simp at this; omega
      · rfl)

/-- An a by 1 column repeated across b columns. -/
theorem col_cols_apply {a b : ℕ} (h : (⟨2, ![a, 1]⟩ : Shape).BroadcastsInDim ⟨2, ![a, b]⟩ ![0, 1])
    (x : (⟨2, ![a, 1]⟩ : Shape).Idx → α) (j : (⟨2, ![a, b]⟩ : Shape).Idx) :
    broadcastInDim ⟨2, ![a, b]⟩ ![0, 1] h x j = x (ix2 (j 0) (0 : Fin 1)) :=
  broadcastInDim_apply _ h x j (ix2 (j 0) (0 : Fin 1)) (fun ax => match ax with
    | ⟨0, _⟩ => by
      show (j 0).val = if a = 1 then 0 else (j 0).val
      split
      · have := (j 0).isLt; simp at this; omega
      · rfl
    | ⟨1, _⟩ => by
      show 0 = if (1 : ℕ) = 1 then 0 else (j 1).val
      rw [if_pos rfl])

/-- A per-row quantity kept as a column and spread over the row. -/
theorem column_apply {a b : ℕ} (h1 : (⟨1, ![a]⟩ : Shape).BroadcastsInDim ⟨2, ![a, 1]⟩ ![0])
    (h2 : (⟨2, ![a, 1]⟩ : Shape).BroadcastsInDim ⟨2, ![a, b]⟩ ![0, 1])
    (x : (⟨1, ![a]⟩ : Shape).Idx → α) (j : (⟨2, ![a, b]⟩ : Shape).Idx) :
    broadcastInDim ⟨2, ![a, b]⟩ ![0, 1] h2 (broadcastInDim ⟨2, ![a, 1]⟩ ![0] h1 x) j = x (ix1 (j 0)) :=
  (col_cols_apply h2 _ j).trans (vec_col_apply h1 x _)

end Idealize.ShloMosaic.HostBroadcast
-- ==== Proof.RefModel.lean ====
/-
  The reference model as a composition of named stages, and its two dense stages read at an entry.

  The reference computes, from node features x, an edge list e (row 0 the sources, row 1 the destinations) and a graph
  assignment batch:
      deg      = number of edges into each node                       (a scatter-add of ones)
      agg(h)   = for each node the sum of h over the sources of its incoming edges   (a gather, then a scatter-add)
      layer(h) = relu( (agg(h) / max(deg, 1)) Wrelᵀ + h Wrootᵀ + b )
      pool(h)  = per graph, the sum of its nodes' rows of h divided by max(number of its nodes, 1)
      result   = pool(layer₂(layer₁(x))) Wcᵀ + bc.
  The gather and the scatter-adds stay closed boxes here: both programs apply the very same ones to the very same
  operands. Only the dense stages are opened: entry (p, q) of a layer is the layer's arithmetic with the coefficient
  1 / max(deg p, 1) — the quotient by the clamped degree being the product with its reciprocal, because the clamped
  degree is never zero — and entry (p, q) of the head is the plain sum over k plus the bias.
-/
import proofs.«124955_j39977555591469_2_alg».proof.ReferenceIdeal
import proofs.«124955_j39977555591469_2_alg».proof.Proof.Gen.ReferenceIdeal
import proofs.«124955_j39977555591469_2_alg».proof.Proof.LayerMath
import proofs.«124955_j39977555591469_2_alg».proof.Proof.LibMatmulRows
import proofs.«124955_j39977555591469_2_alg».proof.Proof.LibHostBroadcast
import Idealize.ShloMosaic.Lib.IdealHost
import Idealize.ShloMosaic.Lib.Pipeline.Value

noncomputable section

namespace Cert.ReferenceIdeal.Model

open Cert.ReferenceIdeal Cert.GraphConv
open Idealize.ShloMosaic Idealize.ShloMosaic.ValueIdx

-- the program's stated side conditions (shape relations of its broadcasts, casts, slices and transposes): the
-- generated witness of them is the instance in scope
open Cert.ReferenceIdeal.Facts₀ Cert.ReferenceIdeal.Facts

section Stages

variable {F : FTy → Type} [FloatOps F]

/-- The edges' sources as a column of row numbers for the gather: row 0 of the edge list, a negative entry counted
    from the end (plus 40000). -/
def srcCol (e : (⟨S2x640000, .i32⟩ : BufTy).Contents (Elt F)) : (⟨S640000x1, .i32⟩ : BufTy).Contents (Elt F) :=
  broadcastInDim S640000x1 ![0] bcast_S640000_S640000x1_0
    (select
      (cmpi .slt (shapeCast _ (extractStridedSlice S1x640000 ![0, 0] e slices_S2x640000_S1x640000_0_0) shapeCasts_S1x640000_S640000)
        (broadcastInDim S640000 ![] bcast_S_S640000 (constantI S_ 32 0#32)))
      (addi (shapeCast _ (extractStridedSlice S1x640000 ![0, 0] e slices_S2x640000_S1x640000_0_0) shapeCasts_S1x640000_S640000)
        (broadcastInDim S640000 ![] bcast_S_S640000 (constantI S_ 32 40000#32)))
      (shapeCast _ (extractStridedSlice S1x640000 ![0, 0] e slices_S2x640000_S1x640000_0_0) shapeCasts_S1x640000_S640000))

/-- The edges' destinations as a column: row 1 of the edge list. -/
def dstCol (e : (⟨S2x640000, .i32⟩ : BufTy).Contents (Elt F)) : (⟨S640000x1, .i32⟩ : BufTy).Contents (Elt F) :=
  broadcastInDim S640000x1 ![0] bcast_S640000_S640000x1_0
    (shapeCast _ (extractStridedSlice S1x640000 ![1, 0] e slices_S2x640000_S1x640000_1_0) shapeCasts_S1x640000_S640000)

/-- For each node, the sum of h's rows over the sources of its incoming edges. -/
def neighbourSum (h : (⟨S40000x128, .f32⟩ : BufTy).Contents (Elt F)) (e : (⟨S2x640000, .i32⟩ : BufTy).Contents (Elt F)) :
    (⟨S40000x128, .f32⟩ : BufTy).Contents (Elt F) :=
  Host.scatterAdd scatter_S40000x128_S640000x1_S640000x128_1_0_0_1
    (broadcastInDim S40000x128 ![] bcast_S_S40000x128 (constant S_ .f32 0x00000000#32)) (dstCol e)
    (Host.gather gather_S40000x128_S640000x1_S640000x128_1_0_n_n_0_1_1128 h (srcCol e))

/-- Each node's in-degree: a one added per incoming edge. -/
def inDegree (e : (⟨S2x640000, .i32⟩ : BufTy).Contents (Elt F)) : (⟨S40000, .f32⟩ : BufTy).Contents (Elt F) :=
  Host.scatterAdd scatter_S40000_S640000x1_S640000_n_0_0_1
    (broadcastInDim S40000 ![] bcast_S_S40000 (constant S_ .f32 0x00000000#32)) (dstCol e)
    (broadcastInDim S640000 ![] bcast_S_S640000 (constant S_ .f32 0x3F800000#32))

/-- The in-degree clamped below at one. -/
def clampDeg (deg : (⟨S40000, .f32⟩ : BufTy).Contents (Elt F)) : (⟨S40000, .f32⟩ : BufTy).Contents (Elt F) :=
  maximumf deg (broadcastInDim S40000 ![] bcast_S_S40000 (constant S_ .f32 0x3F800000#32))

/-- One layer: relu((agg / clamped degree) Wrelᵀ + h Wrootᵀ + b). -/
def convLayer (agg : (⟨S40000x128, .f32⟩ : BufTy).Contents (Elt F)) (deg : (⟨S40000, .f32⟩ : BufTy).Contents (Elt F))
    (h : (⟨S40000x128, .f32⟩ : BufTy).Contents (Elt F)) (wrel wroot : (⟨S128x128, .f32⟩ : BufTy).Contents (Elt F))
    (b : (⟨S128, .f32⟩ : BufTy).Contents (Elt F)) : (⟨S40000x128, .f32⟩ : BufTy).Contents (Elt F) :=
  maximumf
    (addf
      (addf
        (Host.dotGeneral dot_S40000x128_S128x128_S40000x128_1_0_0_1_n_n none
          (Host.divf agg
            (broadcastInDim S40000x128 ![0, 1] bcast_S40000x1_S40000x128_0_1
              (broadcastInDim S40000x1 ![0] bcast_S40000_S40000x1_0 (clampDeg deg))))
          (transpose S128x128 [1, 0] wrel transposes_S128x128_S128x128_1_0))
        (Host.dotGeneral dot_S40000x128_S128x128_S40000x128_1_0_0_1_n_n none h (transpose S128x128 [1, 0] wroot transposes_S128x128_S128x128_1_0)))
      (broadcastInDim S40000x128 ![0, 1] bcast_S1x128_S40000x128_0_1 (broadcastInDim S1x128 ![1] bcast_S128_S1x128_1 b)))
    (broadcastInDim S40000x128 ![] bcast_S_S40000x128 (constant S_ .f32 0x00000000#32))

/-- Per graph, the mean of its nodes' rows (a graph with no node divides by one). -/
def meanPool (batch : (⟨S40000, .i32⟩ : BufTy).Contents (Elt F)) (h : (⟨S40000x128, .f32⟩ : BufTy).Contents (Elt F)) :
    (⟨S64x128, .f32⟩ : BufTy).Contents (Elt F) :=
  Host.divf
    (Host.scatterAdd scatter_S64x128_S40000x1_S40000x128_1_0_0_1
      (broadcastInDim S64x128 ![] bcast_S_S64x128 (constant S_ .f32 0x00000000#32))
      (broadcastInDim S40000x1 ![0] bcast_S40000_S40000x1_0 batch) h)
    (broadcastInDim S64x128 ![0, 1] bcast_S64x1_S64x128_0_1
      (broadcastInDim S64x1 ![0] bcast_S64_S64x1_0
        (maximumf
          (Host.scatterAdd scatter_S64_S40000x1_S40000_n_0_0_1
            (broadcastInDim S64 ![] bcast_S_S64 (constant S_ .f32 0x00000000#32))
            (broadcastInDim S40000x1 ![0] bcast_S40000_S40000x1_0 batch)
            (broadcastInDim S40000 ![] bcast_S_S40000 (constant S_ .f32 0x3F800000#32)))
          (broadcastInDim S64 ![] bcast_S_S64 (constant S_ .f32 0x3F800000#32)))))

/-- The linear head: p Wcᵀ + bc. -/
def head (p : (⟨S64x128, .f32⟩ : BufTy).Contents (Elt F)) (wc : (⟨S128x128, .f32⟩ : BufTy).Contents (Elt F))
    (bc : (⟨S128, .f32⟩ : BufTy).Contents (Elt F)) : (⟨S64x128, .f32⟩ : BufTy).Contents (Elt F) :=
  addf (Host.dotGeneral dot_S64x128_S128x128_S64x128_1_0_0_1_n_n none p (transpose S128x128 [1, 0] wc transposes_S128x128_S128x128_1_0))
    (broadcastInDim S64x128 ![0, 1] bcast_S1x128_S64x128_0_1 (broadcastInDim S1x128 ![1] bcast_S128_S1x128_1 bc))

/-- The first hidden layer. -/
def hidden1 (x : (⟨S40000x128, .f32⟩ : BufTy).Contents (Elt F)) (e : (⟨S2x640000, .i32⟩ : BufTy).Contents (Elt F))
    (w3 w4 : (⟨S128x128, .f32⟩ : BufTy).Contents (Elt F)) (b5 : (⟨S128, .f32⟩ : BufTy).Contents (Elt F)) :
    (⟨S40000x128, .f32⟩ : BufTy).Contents (Elt F) :=
  convLayer (neighbourSum x e) (inDegree e) x w3 w4 b5

/-- The second hidden layer, from the first. -/
def hidden2 (h1 : (⟨S40000x128, .f32⟩ : BufTy).Contents (Elt F)) (e : (⟨S2x640000, .i32⟩ : BufTy).Contents (Elt F))
    (w6 w7 : (⟨S128x128, .f32⟩ : BufTy).Contents (Elt F)) (b8 : (⟨S128, .f32⟩ : BufTy).Contents (Elt F)) :
    (⟨S40000x128, .f32⟩ : BufTy).Contents (Elt F) :=
  convLayer (neighbourSum h1 e) (inDegree e) h1 w6 w7 b8

/-- The whole model. -/
def model (x : (⟨S40000x128, .f32⟩ : BufTy).Contents (Elt F)) (e : (⟨S2x640000, .i32⟩ : BufTy).Contents (Elt F))
    (batch : (⟨S40000, .i32⟩ : BufTy).Contents (Elt F))
    (w3 w4 : (⟨S128x128, .f32⟩ : BufTy).Contents (Elt F)) (b5 : (⟨S128, .f32⟩ : BufTy).Contents (Elt F))
    (w6 w7 : (⟨S128x128, .f32⟩ : BufTy).Contents (Elt F)) (b8 : (⟨S128, .f32⟩ : BufTy).Contents (Elt F))
    (w9 : (⟨S128x128, .f32⟩ : BufTy).Contents (Elt F)) (b10 : (⟨S128, .f32⟩ : BufTy).Contents (Elt F)) :
    (⟨S64x128, .f32⟩ : BufTy).Contents (Elt F) :=
  head (meanPool batch (hidden2 (hidden1 x e w3 w4 b5) e w6 w7 b8)) w9 b10

end Stages

/-! ## The dense stages at an entry, on the extended reals -/

theorem rows_l0 (i : S40000x128.Idx) (q : dot_S40000x128_S128x128_S40000x128_1_0_0_1_n_n.contr.Idx) :
    (dot_S40000x128_S128x128_S40000x128_1_0_0_1_n_n.lhsIdx i q 0).val = (i 0).val := by
  unfold DotDims.lhsIdx
  rw [dif_neg (show ¬(0 : Fin S40000x128.rank) ∈ dot_S40000x128_S128x128_S40000x128_1_0_0_1_n_n.lhsBatch by decide),
    dif_pos (show (0 : Fin S40000x128.rank) ∈ dot_S40000x128_S128x128_S40000x128_1_0_0_1_n_n.lhsNonContracting by decide)]
  rfl

theorem rows_r1 (i : S40000x128.Idx) (q : dot_S40000x128_S128x128_S40000x128_1_0_0_1_n_n.contr.Idx) :
    (dot_S40000x128_S128x128_S40000x128_1_0_0_1_n_n.rhsIdx i q 1).val = (i 1).val := by
  unfold DotDims.rhsIdx
  rw [dif_neg (show ¬(1 : Fin S128x128.rank) ∈ dot_S40000x128_S128x128_S40000x128_1_0_0_1_n_n.rhsBatch by decide),
    dif_pos (show (1 : Fin S128x128.rank) ∈ dot_S40000x128_S128x128_S40000x128_1_0_0_1_n_n.rhsNonContracting by decide)]
  rfl

theorem head_l0 (i : S64x128.Idx) (q : dot_S64x128_S128x128_S64x128_1_0_0_1_n_n.contr.Idx) :
    (dot_S64x128_S128x128_S64x128_1_0_0_1_n_n.lhsIdx i q 0).val = (i 0).val := by
  unfold DotDims.lhsIdx
  rw [dif_neg (show ¬(0 : Fin S64x128.rank) ∈ dot_S64x128_S128x128_S64x128_1_0_0_1_n_n.lhsBatch by decide),
    dif_pos (show (0 : Fin S64x128.rank) ∈ dot_S64x128_S128x128_S64x128_1_0_0_1_n_n.lhsNonContracting by decide)]
  rfl

theorem head_r1 (i : S64x128.Idx) (q : dot_S64x128_S128x128_S64x128_1_0_0_1_n_n.contr.Idx) :
    (dot_S64x128_S128x128_S64x128_1_0_0_1_n_n.rhsIdx i q 1).val = (i 1).val := by
  unfold DotDims.rhsIdx
  rw [dif_neg (show ¬(1 : Fin S128x128.rank) ∈ dot_S64x128_S128x128_S64x128_1_0_0_1_n_n.rhsBatch by decide),
    dif_pos (show (1 : Fin S128x128.rank) ∈ dot_S64x128_S128x128_S64x128_1_0_0_1_n_n.rhsNonContracting by decide)]
  rfl

/-- The reciprocal of node p's clamped in-degree. -/
def recipDeg (deg : (⟨S40000, .f32⟩ : BufTy).Contents (Elt Ideal)) (p : Fin 40000) : EReal :=
  Ideal.div (Ideal.ofBits .f32 0x3F800000#32) (max (deg (ix1 p)) (Ideal.ofBits .f32 0x3F800000#32))

/-- The clamped degree at a node. -/
theorem clampDeg_apply (deg : (⟨S40000, .f32⟩ : BufTy).Contents (Elt Ideal)) (p : Fin 40000) :
    clampDeg (F := Ideal) deg (ix1 p) = max (deg (ix1 p)) (Ideal.ofBits .f32 0x3F800000#32) := by
  unfold clampDeg
  show max (deg (ix1 p)) (broadcastInDim S40000 ![] bcast_S_S40000 (constant (F := Ideal) S_ .f32 0x3F800000#32) (ix1 p)) = _
  rw [HostBroadcast.scalar_apply]
  rfl

/-- Entry (p, q) of a layer: the layer's arithmetic with the reciprocal clamped degree as the row's coefficient. -/
theorem convLayer_apply (agg : (⟨S40000x128, .f32⟩ : BufTy).Contents (Elt Ideal)) (deg : (⟨S40000, .f32⟩ : BufTy).Contents (Elt Ideal))
    (h : (⟨S40000x128, .f32⟩ : BufTy).Contents (Elt Ideal)) (wrel wroot : (⟨S128x128, .f32⟩ : BufTy).Contents (Elt Ideal))
    (b : (⟨S128, .f32⟩ : BufTy).Contents (Elt Ideal)) (p : Fin 40000) (q : Fin 128) :
    convLayer (F := Ideal) agg deg h wrel wroot b (ix2 p q)
      = layerAt agg (recipDeg deg) h (transpose S128x128 [1, 0] wrel transposes_S128x128_S128x128_1_0)
          (transpose S128x128 [1, 0] wroot transposes_S128x128_S128x128_1_0) (fun q => b (ix1 q)) p q := by
  unfold convLayer layerAt
  refine congrArg₂ max (congrArg₂ (· + ·) (congrArg₂ (· + ·) ?_ ?_) ?_) ?_
  · refine MatmulRows.dotGeneral_apply dot_S40000x128_S128x128_S40000x128_1_0_0_1_n_n none _ rfl rfl rfl rfl rows_l0 rows_r1 _ _ (ix2 p q) |>.trans ?_
    refine Finset.sum_congr rfl fun k _ => congrArg (· * _) ?_
    show Ideal.div (agg (ix2 p k)) (broadcastInDim S40000x128 ![0, 1] bcast_S40000x1_S40000x128_0_1
      (broadcastInDim S40000x1 ![0] bcast_S40000_S40000x1_0 (clampDeg (F := Ideal) deg)) (ix2 p k)) = _
    rw [HostBroadcast.column_apply, clampDeg_apply]
    exact (mul_recip_clamp _ _).symm
  · exact MatmulRows.dotGeneral_apply dot_S40000x128_S128x128_S40000x128_1_0_0_1_n_n none _ rfl rfl rfl rfl rows_l0 rows_r1 _ _ (ix2 p q)
  · exact HostBroadcast.bias_apply bcast_S128_S1x128_1 bcast_S1x128_S40000x128_0_1 b (ix2 p q)
  · show broadcastInDim S40000x128 ![] bcast_S_S40000x128 (constant (F := Ideal) S_ .f32 0x00000000#32) (ix2 p q) = 0
    rw [HostBroadcast.scalar_apply]
    exact Ideal.ofBits_zero_f32

/-- Entry (p, q) of the head. -/
theorem head_apply (x : (⟨S64x128, .f32⟩ : BufTy).Contents (Elt Ideal)) (wc : (⟨S128x128, .f32⟩ : BufTy).Contents (Elt Ideal))
    (bc : (⟨S128, .f32⟩ : BufTy).Contents (Elt Ideal)) (p : Fin 64) (q : Fin 128) :
    head (F := Ideal) x wc bc (ix2 p q)
      = denseAt x (transpose S128x128 [1, 0] wc transposes_S128x128_S128x128_1_0) (fun q => bc (ix1 q)) p q := by
  unfold head denseAt
  refine congrArg₂ (· + ·) ?_ ?_
  · exact MatmulRows.dotGeneral_apply dot_S64x128_S128x128_S64x128_1_0_0_1_n_n none _ rfl rfl rfl rfl head_l0 head_r1 _ _ (ix2 p q)
  · exact HostBroadcast.bias_apply bcast_S128_S1x128_1 bcast_S1x128_S64x128_0_1 bc (ix2 p q)

end Cert.ReferenceIdeal.Model

end
-- ==== Proof.LibVectorAsMatrix.lean ====
/-
  A length-n vector reshaped to a 1 × n row or to an n × 1 column, read at an index.

  A reshape keeps row-major positions. Entry (0, q) of the row has position q, and entry (r, 0) of the column has
  position r, so each reads the vector at its free coordinate. This is what a bias `b.reshape(1, n)` or a per-row
  scale `s.reshape(n, 1)` holds, for any element type.
-/
import Idealize.ShloMosaic.Lib.Pipeline.Value
import Idealize.ShloMosaic.Lib.ValueIdx

noncomputable section

namespace Idealize.ShloMosaic.VectorAsMatrix

open Idealize.ShloMosaic Idealize.ShloMosaic.ValueIdx

variable {α : Type} {n : Nat}

/-- [n] reshaped to [1, n]: entry (0, q) is the vector's entry q. -/
theorem row_apply (v : (⟨1, ![n]⟩ : Shape).Idx → α) (h : (⟨1, ![n]⟩ : Shape).ShapeCasts ⟨2, ![1, n]⟩) (p : Fin 1)
    (q : Fin n) : shapeCast ⟨2, ![1, n]⟩ v h (ix2 p q) = v (ix1 q) :=
  shapeCast_apply v h (ix2 p q) (ix1 q) (by
    rw [Shape.rowMajor_val_one, Shape.rowMajor_val_two]
    have hp : p = 0 := Fin.ext (by have := p.isLt; omega)
    subst hp
    show q.val = 0 * n + q.val
    omega)

/-- [n] reshaped to [n, 1]: entry (r, 0) is the vector's entry r. -/
theorem col_apply (v : (⟨1, ![n]⟩ : Shape).Idx → α) (h : (⟨1, ![n]⟩ : Shape).ShapeCasts ⟨2, ![n, 1]⟩) (r : Fin n)
    (q : Fin 1) : shapeCast ⟨2, ![n, 1]⟩ v h (ix2 r q) = v (ix1 r) :=
  shapeCast_apply v h (ix2 r q) (ix1 r) (by
    rw [Shape.rowMajor_val_one, Shape.rowMajor_val_two]
    have hq : q = 0 := Fin.ext (by have := q.isLt; omega)
    subst hq
    show r.val = r.val * 1 + 0
    omega)

end Idealize.ShloMosaic.VectorAsMatrix

end
-- ==== Proof.RefDense.lean ====
/-
  The reference's dense stages in the kernel program's operand forms.

  The kernel program prepares, on the host, the reciprocal of each node's clamped in-degree as a 40000 by 1 column (the
  vector 1 / max(deg, 1) reshaped) and each bias as a 1 by 128 row (the vector reshaped), and its regions compute the
  layer from those. A reshape keeps row-major positions, so the column at (p, 0) is the vector at p and the row at
  (0, q) the vector at q: the layer of the reshaped operands is the reference's layer of deg and b, entry by entry,
  and the dense head of the reshaped bias is the reference's head.
-/
import proofs.«124955_j39977555591469_2_alg».proof.Proof.RefModel
import proofs.«124955_j39977555591469_2_alg».proof.Proof.LibVectorAsMatrix

noncomputable section

namespace Cert.ReferenceIdeal.Model

open Cert.ReferenceIdeal Cert.GraphConv
open Idealize.ShloMosaic Idealize.ShloMosaic.ValueIdx
open Cert.ReferenceIdeal.Facts₀ Cert.ReferenceIdeal.Facts

/-- The vector of ones over the nodes. -/
def onesN : (⟨S40000, .f32⟩ : BufTy).Contents (Elt Ideal) :=
  broadcastInDim S40000 ![] bcast_S_S40000 (constant (F := Ideal) S_ .f32 0x3F800000#32)

/-- The reciprocal clamped degrees as a column: entry (p, 0) is 1 / max(deg p, 1). -/
theorem recipCol_apply (deg : (⟨S40000, .f32⟩ : BufTy).Contents (Elt Ideal)) (sc : S40000.ShapeCasts S40000x1) (p : Fin 40000) :
    shapeCast S40000x1 (Host.divf (F := Ideal) (φ := .f32) onesN (clampDeg (F := Ideal) deg)) sc (ix2 p (0 : Fin 1)) = recipDeg deg p := by
  rw [VectorAsMatrix.col_apply]
  show Ideal.div (onesN (ix1 p)) (clampDeg (F := Ideal) deg (ix1 p)) = _
  rw [clampDeg_apply]
  unfold onesN recipDeg
  rw [HostBroadcast.scalar_apply]
  rfl

/-- A layer computed from the reshaped reciprocal degrees and the reshaped bias is the reference's layer. -/
theorem layerArr_eq_convLayer (agg : (⟨S40000x128, .f32⟩ : BufTy).Contents (Elt Ideal))
    (deg : (⟨S40000, .f32⟩ : BufTy).Contents (Elt Ideal)) (h : (⟨S40000x128, .f32⟩ : BufTy).Contents (Elt Ideal))
    (wrel wroot : (⟨S128x128, .f32⟩ : BufTy).Contents (Elt Ideal)) (b : (⟨S128, .f32⟩ : BufTy).Contents (Elt Ideal))
    (sc : S40000.ShapeCasts S40000x1) (sc' : S128.ShapeCasts S1x128) :
    layerArr agg (shapeCast S40000x1 (Host.divf (F := Ideal) (φ := .f32) onesN (clampDeg (F := Ideal) deg)) sc) h
        (transpose S128x128 [1, 0] wrel transposes_S128x128_S128x128_1_0)
        (transpose S128x128 [1, 0] wroot transposes_S128x128_S128x128_1_0) (shapeCast S1x128 b sc')
      = convLayer (F := Ideal) agg deg h wrel wroot b := by
  funext i
  obtain ⟨p, q, rfl⟩ : ∃ (p : Fin 40000) (q : Fin 128), i = ix2 p q := ⟨i 0, i 1, eq_ix2 i⟩
  rw [convLayer_apply]
  show layerAt agg (fun p => shapeCast S40000x1 (Host.divf (F := Ideal) (φ := .f32) onesN (clampDeg (F := Ideal) deg)) sc (ix2 p (0 : Fin 1))) h
      (transpose S128x128 [1, 0] wrel transposes_S128x128_S128x128_1_0)
      (transpose S128x128 [1, 0] wroot transposes_S128x128_S128x128_1_0) (fun q => shapeCast S1x128 b sc' (ix2 (0 : Fin 1) q)) p q = _
  refine layerAt_congr _ _ _ _ _ _ _ _ _ _ _ _ p p q (fun _ => rfl) (recipCol_apply deg sc p) (fun _ => rfl)
    (fun _ => rfl) (fun _ => rfl) (VectorAsMatrix.row_apply b sc' 0 q)

/-- The dense head computed from the reshaped bias is the reference's head. -/
theorem denseArr_eq_head (x : (⟨S64x128, .f32⟩ : BufTy).Contents (Elt Ideal)) (wc : (⟨S128x128, .f32⟩ : BufTy).Contents (Elt Ideal))
    (bc : (⟨S128, .f32⟩ : BufTy).Contents (Elt Ideal)) (sc' : S128.ShapeCasts S1x128) :
    denseArr x (transpose S128x128 [1, 0] wc transposes_S128x128_S128x128_1_0) (shapeCast S1x128 bc sc')
      = head (F := Ideal) x wc bc := by
  funext i
  obtain ⟨p, q, rfl⟩ : ∃ (p : Fin 64) (q : Fin 128), i = ix2 p q := ⟨i 0, i 1, eq_ix2 i⟩
  rw [head_apply]
  show denseAt x (transpose S128x128 [1, 0] wc transposes_S128x128_S128x128_1_0)
      (fun q => shapeCast S1x128 bc sc' (ix2 (0 : Fin 1) q)) p q = _
  exact denseAt_congr _ _ _ _ _ _ p p q (fun _ => rfl) (fun _ => rfl) (VectorAsMatrix.row_apply bc sc' 0 q)

end Cert.ReferenceIdeal.Model

end
-- ==== Proof.KernelFold.lean ====
/-
  The kernel program's result, read back through its six segments to the launch memory.

  Before the first region the host computes, from the arguments: the neighbour sums of x over the edge list; the
  reciprocal clamped in-degrees as a column; the two transposed weight matrices and the bias as a row. The region then
  leaves in its output array the layer of those (the blocks-to-array step), which is the reference's first hidden layer.
  Before the second region the host computes the neighbour sums of that hidden layer over the same edge list and the
  second layer's weights and bias; the degrees' column, computed once, is still where the first stretch left it, because
  a region changes nothing but its output array and the host stretch in between does not write it. The second region
  leaves the second hidden layer. Before the third the host pools it per graph and prepares the head's weights and
  bias; the third region leaves the dense head of those: the reference's model of the eleven arguments.

  Each step is one of three kinds: a host stretch read back one operation at a time (the host's gathers and
  scatter-adds stay closed boxes, identical in both programs); a region, by its blocks-to-array theorem; a buffer that
  a segment does not write, carried across it unchanged.
-/
import proofs.«124955_j39977555591469_2_alg».proof.Proof.Gen.KernelIdeal.Frame
import proofs.«124955_j39977555591469_2_alg».proof.Proof.KernelBlocks
import proofs.«124955_j39977555591469_2_alg».proof.Proof.RefDense

set_option maxRecDepth 16384

noncomputable section

namespace Cert.KernelIdeal.Fold

open Cert.KernelIdeal Cert.KernelIdeal.Gen Cert.GraphConv
open Idealize.ShloMosaic Idealize.ShloMosaic.TcCoe Idealize.ShloMosaic.StableHlo
open Idealize.ShloMosaic.Pipeline (Dat Cfg Window)
open Cert.ReferenceIdeal.Model (neighbourSum inDegree clampDeg convLayer meanPool head hidden1 hidden2 model onesN
  layerArr_eq_convLayer denseArr_eq_head)

variable (m : (ℓ : Loc nD τ sig) → Buf (Elt Ideal) ℓ) (ρ : Dev nD → PrngReg)

/-! ## After the first host stretch -/

/-- The neighbour sums of x. -/
theorem W1_agg (c : Dev nD) : W1 m ρ c (Proc.devRef .tc main_v23)
    = neighbourSum (F := Ideal) (m ((c : Thread nD τ).loc main_arg0)) (m ((c : Thread nD τ).loc main_arg1)) := by
  show StableHlo.after hostOps0 (W0 m ρ c) (Proc.devRef .tc main_v23) = _
  after_results_simp
  rfl

/-- The reciprocal clamped in-degrees, as a column. -/
theorem W1_inv (c : Dev nD) : W1 m ρ c (Proc.devRef .tc main_v13)
    = shapeCast S40000x1 (Host.divf (F := Ideal) (φ := .f32) onesN
        (clampDeg (F := Ideal) (inDegree (F := Ideal) (m ((c : Thread nD τ).loc main_arg1))))) shapeCasts_S40000_S40000x1 := by
  show StableHlo.after hostOps0 (W0 m ρ c) (Proc.devRef .tc main_v13) = _
  after_results
  rfl

/-- The features x themselves. -/
theorem W1_x (c : Dev nD) : W1 m ρ c (Proc.devRef .tc main_arg0) = m ((c : Thread nD τ).loc main_arg0) := by
  show StableHlo.after hostOps0 (W0 m ρ c) (Proc.devRef .tc main_arg0) = _
  after_results

/-- The first layer's neighbour weights, transposed. -/
theorem W1_w3 (c : Dev nD) : W1 m ρ c (Proc.devRef .tc main_v24)
    = transpose S128x128 [1, 0] (m ((c : Thread nD τ).loc main_arg3)) transposes_S128x128_S128x128_1_0 := by
  show StableHlo.after hostOps0 (W0 m ρ c) (Proc.devRef .tc main_v24) = _
  after_results

/-- The first layer's root weights, transposed. -/
theorem W1_w4 (c : Dev nD) : W1 m ρ c (Proc.devRef .tc main_v25)
    = transpose S128x128 [1, 0] (m ((c : Thread nD τ).loc main_arg4)) transposes_S128x128_S128x128_1_0 := by
  show StableHlo.after hostOps0 (W0 m ρ c) (Proc.devRef .tc main_v25) = _
  after_results

/-- The first layer's bias, as a row. -/
theorem W1_b5 (c : Dev nD) : W1 m ρ c (Proc.devRef .tc main_v26)
    = shapeCast S1x128 (m ((c : Thread nD τ).loc main_arg5)) shapeCasts_S128_S1x128 := by
  show StableHlo.after hostOps0 (W0 m ρ c) (Proc.devRef .tc main_v26) = _
  after_results
  rfl

/-- The edges' sources, as the first stretch left them. -/
theorem W1_src (c : Dev nD) : W1 m ρ c (Proc.devRef .tc main_v1)
    = shapeCast S640000 (extractStridedSlice S1x640000 ![0, 0] (m ((c : Thread nD τ).loc main_arg1)) slices_S2x640000_S1x640000_0_0)
        shapeCasts_S1x640000_S640000 := by
  show StableHlo.after hostOps0 (W0 m ρ c) (Proc.devRef .tc main_v1) = _
  after_results
  rfl

/-- The edges' destinations, as the first stretch left them. -/
theorem W1_dst (c : Dev nD) : W1 m ρ c (Proc.devRef .tc main_v3)
    = shapeCast S640000 (extractStridedSlice S1x640000 ![1, 0] (m ((c : Thread nD τ).loc main_arg1)) slices_S2x640000_S1x640000_1_0)
        shapeCasts_S1x640000_S640000 := by
  show StableHlo.after hostOps0 (W0 m ρ c) (Proc.devRef .tc main_v3) = _
  after_results
  rfl

/-- The vector of ones over the nodes (the pool's node count sums it). -/
theorem W1_ones (c : Dev nD) : W1 m ρ c (Proc.devRef .tc main_v5) = onesN := by
  show StableHlo.after hostOps0 (W0 m ρ c) (Proc.devRef .tc main_v5) = _
  after_results
  rfl

/-- An argument the first stretch only reads is still the launch memory's: the graph assignment, … -/
theorem W1_batch (c : Dev nD) : W1 m ρ c (Proc.devRef .tc main_arg2) = m ((c : Thread nD τ).loc main_arg2) := by
  show StableHlo.after hostOps0 (W0 m ρ c) (Proc.devRef .tc main_arg2) = _
  after_results
/-- … the second layer's neighbour weights, … -/
theorem W1_arg6 (c : Dev nD) : W1 m ρ c (Proc.devRef .tc main_arg6) = m ((c : Thread nD τ).loc main_arg6) := by
  show StableHlo.after hostOps0 (W0 m ρ c) (Proc.devRef .tc main_arg6) = _
  after_results
/-- … its root weights, … -/
theorem W1_arg7 (c : Dev nD) : W1 m ρ c (Proc.devRef .tc main_arg7) = m ((c : Thread nD τ).loc main_arg7) := by
  show StableHlo.after hostOps0 (W0 m ρ c) (Proc.devRef .tc main_arg7) = _
  after_results
/-- … its bias, … -/
theorem W1_arg8 (c : Dev nD) : W1 m ρ c (Proc.devRef .tc main_arg8) = m ((c : Thread nD τ).loc main_arg8) := by
  show StableHlo.after hostOps0 (W0 m ρ c) (Proc.devRef .tc main_arg8) = _
  after_results
/-- … the head's weights … -/
theorem W1_arg9 (c : Dev nD) : W1 m ρ c (Proc.devRef .tc main_arg9) = m ((c : Thread nD τ).loc main_arg9) := by
  show StableHlo.after hostOps0 (W0 m ρ c) (Proc.devRef .tc main_arg9) = _
  after_results
/-- … and the head's bias. -/
theorem W1_arg10 (c : Dev nD) : W1 m ρ c (Proc.devRef .tc main_arg10) = m ((c : Thread nD τ).loc main_arg10) := by
  show StableHlo.after hostOps0 (W0 m ρ c) (Proc.devRef .tc main_arg10) = _
  after_results

/-! ## After the first region -/

/-- The first region's output array is the reference's first hidden layer. -/
theorem W2_h1 (c : Dev nD) : W2 m ρ c (Proc.devRef .tc main_v27)
    = hidden1 (F := Ideal) (m ((c : Thread nD τ).loc main_arg0)) (m ((c : Thread nD τ).loc main_arg1))
        (m ((c : Thread nD τ).loc main_arg3)) (m ((c : Thread nD τ).loc main_arg4)) (m ((c : Thread nD τ).loc main_arg5)) := by
  refine (W2_arr m ρ c 6).trans ?_
  rw [Blocks.final0 (V1 m ρ) c]
  show layerArr (W1 m ρ c (Proc.devRef .tc main_v23)) (W1 m ρ c (Proc.devRef .tc main_v13)) (W1 m ρ c (Proc.devRef .tc main_arg0))
      (W1 m ρ c (Proc.devRef .tc main_v24)) (W1 m ρ c (Proc.devRef .tc main_v25)) (W1 m ρ c (Proc.devRef .tc main_v26)) = _
  rw [W1_agg, W1_inv, W1_x, W1_w3, W1_w4, W1_b5]
  exact layerArr_eq_convLayer _ _ _ _ _ _ _ _

/-- The region read the degrees' column through an input window: it is as the first stretch left it. -/
theorem W2_inv (c : Dev nD) : W2 m ρ c (Proc.devRef .tc main_v13) = W1 m ρ c (Proc.devRef .tc main_v13) :=
  (W2_arr m ρ c 1).trans (((dat0 (V1 m ρ) c).arrAt_in 1 rfl _).trans (A_eq0 (V1 m ρ) c 1))

/-! ## After the second host stretch -/

/-- The neighbour sums of the first hidden layer, over the same edge list. -/
theorem W3_agg (c : Dev nD) : W3 m ρ c (Proc.devRef .tc main_v37)
    = neighbourSum (F := Ideal) (W2 m ρ c (Proc.devRef .tc main_v27)) (m ((c : Thread nD τ).loc main_arg1)) := by
  show StableHlo.after hostOps1 (W2 m ρ c) (Proc.devRef .tc main_v37) = _
  after_results
  rw [W2_of_ne m ρ c main_v1 (by decide), W2_of_ne m ρ c main_v3 (by decide), W1_src, W1_dst]
  rfl

/-- The degrees' column is still the first stretch's. -/
theorem W3_inv (c : Dev nD) : W3 m ρ c (Proc.devRef .tc main_v13)
    = shapeCast S40000x1 (Host.divf (F := Ideal) (φ := .f32) onesN
        (clampDeg (F := Ideal) (inDegree (F := Ideal) (m ((c : Thread nD τ).loc main_arg1))))) shapeCasts_S40000_S40000x1 := by
  show StableHlo.after hostOps1 (W2 m ρ c) (Proc.devRef .tc main_v13) = _
  after_results
  exact (W2_inv m ρ c).trans (W1_inv m ρ c)

/-- The first hidden layer is still the first region's output. -/
theorem W3_h1 (c : Dev nD) : W3 m ρ c (Proc.devRef .tc main_v27) = W2 m ρ c (Proc.devRef .tc main_v27) := by
  show StableHlo.after hostOps1 (W2 m ρ c) (Proc.devRef .tc main_v27) = _
  after_results

/-- The second layer's neighbour weights, transposed. -/
theorem W3_w6 (c : Dev nD) : W3 m ρ c (Proc.devRef .tc main_v38)
    = transpose S128x128 [1, 0] (m ((c : Thread nD τ).loc main_arg6)) transposes_S128x128_S128x128_1_0 := by
  show StableHlo.after hostOps1 (W2 m ρ c) (Proc.devRef .tc main_v38) = _
  after_results
  rw [W2_of_ne m ρ c main_arg6 (by decide), W1_arg6]

/-- The second layer's root weights, transposed. -/
theorem W3_w7 (c : Dev nD) : W3 m ρ c (Proc.devRef .tc main_v39)
    = transpose S128x128 [1, 0] (m ((c : Thread nD τ).loc main_arg7)) transposes_S128x128_S128x128_1_0 := by
  show StableHlo.after hostOps1 (W2 m ρ c) (Proc.devRef .tc main_v39) = _
  after_results
  rw [W2_of_ne m ρ c main_arg7 (by decide), W1_arg7]

/-- The second layer's bias, as a row. -/
theorem W3_b8 (c : Dev nD) : W3 m ρ c (Proc.devRef .tc main_v40)
    = shapeCast S1x128 (m ((c : Thread nD τ).loc main_arg8)) shapeCasts_S128_S1x128 := by
  show StableHlo.after hostOps1 (W2 m ρ c) (Proc.devRef .tc main_v40) = _
  after_results
  rw [W2_of_ne m ρ c main_arg8 (by decide), W1_arg8]
  rfl

/-- Buffers the second stretch does not write, carried back to the launch memory or the first stretch: the graph
    assignment, … -/
theorem W3_batch (c : Dev nD) : W3 m ρ c (Proc.devRef .tc main_arg2) = m ((c : Thread nD τ).loc main_arg2) := by
  show StableHlo.after hostOps1 (W2 m ρ c) (Proc.devRef .tc main_arg2) = _
  after_results
  rw [W2_of_ne m ρ c main_arg2 (by decide), W1_batch]
/-- … the vector of ones, … -/
theorem W3_ones (c : Dev nD) : W3 m ρ c (Proc.devRef .tc main_v5) = onesN := by
  show StableHlo.after hostOps1 (W2 m ρ c) (Proc.devRef .tc main_v5) = _
  after_results
  rw [W2_of_ne m ρ c main_v5 (by decide), W1_ones]
/-- … the head's weights … -/
theorem W3_arg9 (c : Dev nD) : W3 m ρ c (Proc.devRef .tc main_arg9) = m ((c : Thread nD τ).loc main_arg9) := by
  show StableHlo.after hostOps1 (W2 m ρ c) (Proc.devRef .tc main_arg9) = _
  after_results
  rw [W2_of_ne m ρ c main_arg9 (by decide), W1_arg9]
/-- … and the head's bias. -/
theorem W3_arg10 (c : Dev nD) : W3 m ρ c (Proc.devRef .tc main_arg10) = m ((c : Thread nD τ).loc main_arg10) := by
  show StableHlo.after hostOps1 (W2 m ρ c) (Proc.devRef .tc main_arg10) = _
  after_results
  rw [W2_of_ne m ρ c main_arg10 (by decide), W1_arg10]

/-! ## After the second region -/

/-- The second region's output array is the reference's second hidden layer. -/
theorem W4_h2 (c : Dev nD) : W4 m ρ c (Proc.devRef .tc main_v41)
    = hidden2 (F := Ideal)
        (hidden1 (F := Ideal) (m ((c : Thread nD τ).loc main_arg0)) (m ((c : Thread nD τ).loc main_arg1))
          (m ((c : Thread nD τ).loc main_arg3)) (m ((c : Thread nD τ).loc main_arg4)) (m ((c : Thread nD τ).loc main_arg5)))
        (m ((c : Thread nD τ).loc main_arg1)) (m ((c : Thread nD τ).loc main_arg6)) (m ((c : Thread nD τ).loc main_arg7))
        (m ((c : Thread nD τ).loc main_arg8)) := by
  refine (W4_arr m ρ c 6).trans ?_
  rw [Blocks.final1 (V3 m ρ) c]
  show layerArr (W3 m ρ c (Proc.devRef .tc main_v37)) (W3 m ρ c (Proc.devRef .tc main_v13)) (W3 m ρ c (Proc.devRef .tc main_v27))
      (W3 m ρ c (Proc.devRef .tc main_v38)) (W3 m ρ c (Proc.devRef .tc main_v39)) (W3 m ρ c (Proc.devRef .tc main_v40)) = _
  rw [W3_agg, W3_inv, W3_h1, W3_w6, W3_w7, W3_b8, W2_h1]
  exact layerArr_eq_convLayer _ _ _ _ _ _ _ _

/-! ## After the third host stretch -/

/-- The mean pool of the second hidden layer. -/
theorem W5_pool (c : Dev nD) : W5 m ρ c (Proc.devRef .tc main_v52)
    = meanPool (F := Ideal) (m ((c : Thread nD τ).loc main_arg2)) (W4 m ρ c (Proc.devRef .tc main_v41)) := by
  show StableHlo.after hostOps2 (W4 m ρ c) (Proc.devRef .tc main_v52) = _
  after_results
  rw [W4_of_ne m ρ c main_arg2 (by decide), W4_of_ne m ρ c main_v5 (by decide), W3_batch, W3_ones]
  rfl

/-- The head's weights, transposed. -/
theorem W5_w9 (c : Dev nD) : W5 m ρ c (Proc.devRef .tc main_v53)
    = transpose S128x128 [1, 0] (m ((c : Thread nD τ).loc main_arg9)) transposes_S128x128_S128x128_1_0 := by
  show StableHlo.after hostOps2 (W4 m ρ c) (Proc.devRef .tc main_v53) = _
  after_results
  rw [W4_of_ne m ρ c main_arg9 (by decide), W3_arg9]

/-- The head's bias, as a row. -/
theorem W5_b10 (c : Dev nD) : W5 m ρ c (Proc.devRef .tc main_v54)
    = shapeCast S1x128 (m ((c : Thread nD τ).loc main_arg10)) shapeCasts_S128_S1x128 := by
  show StableHlo.after hostOps2 (W4 m ρ c) (Proc.devRef .tc main_v54) = _
  after_results
  rw [W4_of_ne m ρ c main_arg10 (by decide), W3_arg10]
  rfl

/-! ## After the third region: the result -/

/-- The result array ends holding the reference's model of the eleven arguments. -/
theorem W6_result (c : Dev nD) : W6 m ρ c (Proc.devRef .tc main_v55)
    = model (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10)) := by
  refine (W6_arr m ρ c 3).trans ?_
  rw [Blocks.final2 (V5 m ρ) c]
  show denseArr (W5 m ρ c (Proc.devRef .tc main_v52)) (W5 m ρ c (Proc.devRef .tc main_v53)) (W5 m ρ c (Proc.devRef .tc main_v54)) = _
  rw [W5_pool, W5_w9, W5_b10, W4_h2]
  exact denseArr_eq_head _ _ _ _

end Cert.KernelIdeal.Fold

end
-- ==== Proof.RefResult.lean ====
/-
  The reference's result is the model.

  The reference's run ends with its result array at the composed term of its ninety-seven host operations applied to
  the argument arrays. That term is, operation for operation, the composition of the named stages: head of the mean
  pool of the second layer of the first layer, each layer over the neighbour sums and the in-degrees of the same edge
  list. Nothing is computed here: the two spellings unfold to the same term.
-/
import proofs.«124955_j39977555591469_2_alg».proof.Proof.Gen.ReferenceIdeal.Run
import proofs.«124955_j39977555591469_2_alg».proof.Proof.RefModel

noncomputable section

namespace Cert.ReferenceIdeal.Model

open Cert.ReferenceIdeal Cert.ReferenceIdeal.Value
open Idealize.ShloMosaic Idealize.ShloMosaic.TcCoe Idealize.SL.Sem

variable {F : FTy → Type} [FloatOps F]

set_option maxRecDepth 16384 in
set_option maxHeartbeats 4000000 in
/-- The run's result term is the model of the eleven argument arrays. -/
theorem res_eq_model (m : (ℓ : Loc nD τ sig) → Buf (Elt F) ℓ) (c : Dev nD) :
    res_out0 m c
      = model (F := F) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) := by
  unfold res_out0 res_main_v76 model hidden2 hidden1 convLayer clampDeg neighbourSum inDegree meanPool head srcCol dstCol
  rfl

end Cert.ReferenceIdeal.Model

end
-- ==== Proof.lean ====
/-
  A two-layer graph-convolution network with mean aggregation, a mean pool per graph and a linear head: the kernel
  program against its reference, as extended reals.

  Both programs compute, from node features x, an edge list and a graph assignment,
      h₁ = relu( (S h₀ / max(deg, 1)) W_rel1ᵀ + h₀ W_root1ᵀ + b1 ),   h₀ = x,
      h₂ = relu( (S h₁ / max(deg, 1)) W_rel2ᵀ + h₁ W_root2ᵀ + b2 ),
      result = pool(h₂) Wcᵀ + bc,
  where S h sums, for each node, h over the sources of its incoming edges, deg counts them, and pool averages the rows
  of each graph. The reference does all of it with host operations. The kernel program does the gathers, the
  scatter-adds, the degree count and the pool on the host with the same operations, and each dense stage in a kernel:
  the two layers on eight blocks of 5000 rows, the head in one piece. Inside a layer's kernel the neighbour sums are
  MULTIPLIED by the reciprocal 1 / max(deg, 1), computed once on the host, where the reference DIVIDES by max(deg, 1).
  On the extended reals a quotient by a divisor that is not zero is the product with the divisor's reciprocal, and a
  degree clamped below at one is not zero; this holds for every extended real dividend, so the precondition (finite
  inputs) is not used by the value claim. The kernels' roundings to bf16 are the identity on the extended reals, and
  their matrix products into a zero accumulator are the same sums over the contracted axis as the host's.

  The modules: LayerMath (the arithmetic of one layer and of the head at an entry, and the reciprocal law);
  KernelPayload (what each kernel body stores, at an entry); KernelBlocks (each region's output array from its blocks);
  KernelRun (the kernel program's run, its result kept); KernelFold (the result read back through the six segments);
  RefModel, RefDense, RefResult (the reference as a composition of stages, its dense stages at an entry, its run's
  result). Here: the five claims.
-/
import proofs.«124955_j39977555591469_2_alg».proof.Defs
import proofs.«124955_j39977555591469_2_alg».proof.Proof.Gen.Kernel
import proofs.«124955_j39977555591469_2_alg».proof.Proof.Gen.Kernel.Skeleton
import proofs.«124955_j39977555591469_2_alg».proof.Proof.Gen.Kernel.Launch
import proofs.«124955_j39977555591469_2_alg».proof.Proof.Gen.Kernel.Points
import proofs.«124955_j39977555591469_2_alg».proof.Proof.Gen.Kernel.Frame
import proofs.«124955_j39977555591469_2_alg».proof.Proof.Gen.KernelIdeal
import proofs.«124955_j39977555591469_2_alg».proof.Proof.Gen.KernelIdeal.Skeleton
import proofs.«124955_j39977555591469_2_alg».proof.Proof.Gen.KernelIdeal.Launch
import proofs.«124955_j39977555591469_2_alg».proof.Proof.Gen.KernelIdeal.Points
import proofs.«124955_j39977555591469_2_alg».proof.Proof.Gen.KernelIdeal.Frame
import proofs.«124955_j39977555591469_2_alg».proof.Proof.Gen.ReferenceIdeal
import proofs.«124955_j39977555591469_2_alg».proof.Proof.Gen.ReferenceIdeal.Run
import proofs.«124955_j39977555591469_2_alg».proof.Proof.Gen.Pre_finite_inputs
import proofs.«124955_j39977555591469_2_alg».proof.Proof.KernelRun
import proofs.«124955_j39977555591469_2_alg».proof.Proof.KernelFold
import proofs.«124955_j39977555591469_2_alg».proof.Proof.RefResult
import Idealize.ShloMosaic.Adequacy
import Idealize.ShloMosaic.Init

noncomputable section

namespace Cert.Proof

open Idealize.ShloMosaic Idealize.ShloMosaic.TcCoe Idealize.SL.Sem

/-- The kernel program as printed runs and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments alone: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing: the idealization is the kernel program's own text read on the extended reals. -/
theorem preserves : Cert.preserves_Kernel_KernelIdeal := trivial

/-- From memories that agree on the eleven arguments both programs end with the model of those arguments in their
    result array: the kernel program by its run read back through its segments, the reference by its run. -/
theorem algebraic : Cert.algebraic_KernelIdeal_ReferenceIdeal := by
  intro m ρ m' ρ' _ hagree
  refine ⟨fun c => Cert.ReferenceIdeal.Model.model (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Fold.W6_result m ρ c), (h c).2⟩)
      (Cert.KernelIdeal.RunValue.run_value m ρ)
  · refine (θ_run Cert.ReferenceIdeal.defs _ _).mono (fun r h c => ⟨(h c).1.trans ?_, (h c).2⟩)
      (Cert.ReferenceIdeal.Value.run (F := Ideal) m' ρ')
    refine (Cert.ReferenceIdeal.Model.res_eq_model m' c).trans ?_
    obtain ⟨h0, h1, h2, h3, h4, h5, h6, h7, h8, h9, h10⟩ := hagree c
    rw [h0, h1, h2, h3, h4, h5, h6, h7, h8, h9, h10]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
